-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384x16384 : Shape := ⟨2, ![16384, 16384]⟩
abbrev S256x256 : Shape := ⟨2, ![256, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S16384x256 .f32) (main_arg1 : FVec F S16384x16384 .f32) (main_arg2 : FVec F S256x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S16384x256 : Shape := ⟨2, ![16384, 256]⟩
abbrev S16384x16384 : Shape := ⟨2, ![16384, 16384]⟩
abbrev S256x256 : Shape := ⟨2, ![256, 256]⟩
abbrev S2048x256 : Shape := ⟨2, ![2048, 256]⟩
abbrev S2048x1024 : Shape := ⟨2, ![2048, 1024]⟩
abbrev S1024x256 : Shape := ⟨2, ![1024, 256]⟩

abbrev nBuf : Space → Nat
  | .hbm => 5
  | .vmem => 11
  | .smem => 0
  | _ => 0

abbrev bufTy : (tb : Table) → Fin (tcTables nBuf tb) → BufTy
  | .hbm, ⟨0, _⟩ => ⟨S16384x256, .f32⟩
  | .hbm, ⟨1, _⟩ => ⟨S16384x16384, .f32⟩
  | .hbm, ⟨2, _⟩ => ⟨S256x256, .f32⟩
  | .hbm, ⟨3, _⟩ => ⟨S16384x256, .bf16⟩
  | .hbm, ⟨4, _⟩ => ⟨S16384x256, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S2048x256, .bf16⟩
  | .local _ .vmem, ⟨4, _⟩ => ⟨S2048x256, .bf16⟩
  | .local _ .vmem, ⟨5, _⟩ => ⟨S2048x1024, .f32⟩
  | .local _ .vmem, ⟨6, _⟩ => ⟨S2048x1024, .f32⟩
  | .local _ .vmem, ⟨7, _⟩ => ⟨S16384x256, .bf16⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 16], ![false, false]⟩

def k1_mult1 (i : grid1.Coords) : BitVec 32 :=
  let arg1 : BitVec 32 := BitVec.ofNat 32 (i 1).val
  let c1024_i32 : BitVec 32 := 1024#32
  let v5 : BitVec 32 := Scalar.muli arg1 c1024_i32
  v5
def k1_off1 (i : grid1.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c15_i32 : BitVec 32 := 15#32
  let v16 : BitVec 1 := Scalar.cmpi .eq arg1 c15_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16384x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  packedbf16_S2048x256_S2048x256_0_0 : (Rect.unit (s := S2048x256) ![0, 0] S2048x256.size inb_S2048x256_S2048x256_0_0).PackedRows (EltTy.packing .bf16)
  shapeCasts_S2048x256_S2048x256 : S2048x256.ShapeCasts S2048x256
  inb_S2048x1024_S2048x1024_0_0 : ∀ a, (![0, 0] : Fin 2 → Nat) a + S2048x1024.size a ≤ S2048x1024.size a
  h_S2048x1024 : 0 < S2048x1024.numel
  h_S1024x256 : 0 < S1024x256.numel
  shapeCasts_S1024x256_S1024x256 : S1024x256.ShapeCasts S1024x256
  dot_S2048x256_S256x256_S2048x256_1_0_0_1_n_n_wf : DotDims.WF S2048x256 S256x256 S2048x256 [1] [0] [0] [1] [] []
  dot_S2048x1024_S1024x256_S2048x256_1_0_0_1_n_n_wf : DotDims.WF S2048x1024 S1024x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S16384x256.size a
  hwx0_2 : ∀ i : grid0.Coords, EltTy.bits .bf16 = 32 ∨ (Rect.block (s := S16384x256) S2048x256.size (cc0_transform_2 i) (hinb0_2 i)).WholeWords (EltTy.packing .bf16)
  hrank1 : 0 < grid1.rank
  k1_mult1_dvd : ∀ i : grid1.Coords, 1024 ∣ (k1_mult1 i).toNat
  k1_off1_inb : ∀ i : grid1.Coords, ∀ a, (k1_off1 i) a + S1024x256.size a ≤ S16384x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S16384x16384.size a
  hwx1_0 : ∀ i : grid1.Coords, EltTy.bits .f32 = 32 ∨ (Rect.block (s := S16384x16384) S2048x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x256.size a ≤ S16384x256.size a
  hwx1_1 : ∀ i : grid1.Coords, EltTy.bits .bf16 = 32 ∨ (Rect.block (s := S16384x256) S16384x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S16384x256.size a
  hwx1_2 : ∀ i : grid1.Coords, EltTy.bits .f32 = 32 ∨ (Rect.block (s := S16384x256) S2048x256.size (cc1_transform_2 i) (hinb1_2 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S16384x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2048x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S16384x256 : Shape := ⟨2, ![16384, 256]⟩
abbrev S16384x16384 : Shape := ⟨2, ![16384, 16384]⟩
abbrev S256x256 : Shape := ⟨2, ![256, 256]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x16384, .f32⟩
  | .hbm, ⟨2, _⟩ => ⟨S256x256, .f32⟩
  | .hbm, ⟨3, _⟩ => ⟨S16384x256, .f32⟩
  | .hbm, ⟨4, _⟩ => ⟨S16384x256, .f32⟩
  | .hbm, ⟨5, _⟩ => ⟨S_, .f32⟩
  | .hbm, ⟨6, _⟩ => ⟨S16384x256, .f32⟩
  | .hbm, ⟨7, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S16384x256 : S_.BroadcastsInDim S16384x256 (![] : Fin 0 → Fin S16384x256.rank)
  dot_S16384x256_S256x256_S16384x256_1_0_0_1_n_n_wf : DotDims.WF S16384x256 S256x256 S16384x256 [1] [0] [0] [1] [] []
  dot_S16384x16384_S16384x256_S16384x256_1_0_0_1_n_n_wf : DotDims.WF S16384x16384 S16384x256 S16384x256 [1] [0] [0] [1] [] []

variable [Facts₀]

def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x16384_S16384x256_S16384x256_1_0_0_1_n_n : DotDims S16384x16384 S16384x256 S16384x256 where
  lhsContracting := [1]
  rhsContracting := [0]
  lhsNonContracting := [0]
  rhsNonContracting := [1]
  lhsBatch := []
  rhsBatch := []
  wf := dot_S16384x16384_S16384x256_S16384x256_1_0_0_1_n_n_wf

class Facts : Prop extends Facts₀ where

variable [Facts]
-- ==== Proof.KFrameCommon.lean ====
/-
  What both kernel regions of the program share, at any float instance: the block of an array that a window
  stages at a grid point, the fact that an input window's current staging buffer holds that block whether or
  not the pipeline fetched it at the point, and — for the second region, whose body resets an accumulator at
  the first step along the contracted axis and stores its output at the last — the two branch conditions in
  closed form over the 8 × 16 grid, the points at which the output window is idle, and the accumulator's
  buffer taken out of the region's scoped rest.
-/
import proofs.«105310_j7602092114484_2_alg».proof.Proof.Gen.Kernel.Launch
import proofs.«105310_j7602092114484_2_alg».proof.Proof.Gen.Kernel.Skeleton
import proofs.«105310_j7602092114484_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
-- the TensorCore's buffer contents when a region is entered
variable (V : (c : Dev nD) → (b : Ref sig .tc) → Buf (Elt F) ((c : Thread nD τ).loc b))

/-! ## Region 0: row blocks of X, the whole of W -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of X is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- W, fetched once, is in its staging buffer at every point: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## Region 1: blocks of the adjacency matrix, the whole of X·W -/

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Entry

/-! ## Region 1's branch conditions over the grid -/

/-- "This is the first step along the contracted axis": the accumulator is reset. -/
abbrev cond1_0 (i : grid1.Coords) : Prop := (Scalar.cmpi .ne (Scalar.extui (Scalar.cmpi .eq (BitVec.ofNat 32 (i 1).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- "This is the last step along the contracted axis": the output block is stored. -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Away from the last step the output window is idle and not written back; -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- at the last step it is live. -/
theorem liveAt1_2 : ∀ t : Fin cfg1.N, cond1_1 (grid1.coords t) → cfg1.idle 2 (grid1.coords t) = false := by decide +kernel

/-! ## Region 1's memrefs -/

abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x256 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1 : Memref sig .tc .vmem S2048x256 .f32 := Memref.whole cc1_scratch0
abbrev VS1 : View sig .tc .vmem S2048x256 .f32 := (scM1).view
abbrev VO1_2 : View sig .tc .vmem S2048x256 .f32 := (Memref.whole cc1_stg2_0 : Memref sig .tc .vmem S2048x256 .f32).view

/-- Region 1's scoped rest with the accumulator taken out as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1 fullShare d)) ∗ (∃ r, prngReg c r)) := by
  unfold Pipeline.ΦA; rw [scopedRest1_eq]; simp only [scM1, owns_whole]; try rfl

end Cert.Kernel.Fr

end
-- ==== Proof.KRegion0.lean ====
/-
  The first kernel region at any float instance: at each of its 8 grid points the body loads a block of 2048
  rows of X and the whole of W and stores, over the whole output block, their product (rounded to the output's
  format). Stated here: what the output's staging buffer holds after the body as a function of the two input
  blocks, the body's triple, the region's proof data and the body obligation at every point.
-/
import proofs.«105310_j7602092114484_2_alg».proof.Proof.KFrameCommon

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

abbrev r0X : Rect S2048x256 := Rect.unit (s := S2048x256) ![0, 0] S2048x256.size inb_S2048x256_S2048x256_0_0
abbrev r0W : Rect S256x256 := Rect.unit (s := S256x256) ![0, 0] S256x256.size inb_S256x256_S256x256_0_0

/-- The output block after the body: one store of the product over the whole block. -/
def out0_2 (x0 : Vec F S2048x256 .f32) (x1 : Vec F S256x256 .f32) : Vec F S2048x256 .bf16 :=
  View.canon [⟨r0X, k0_pay1 (View.ld x0 r0X) (View.ld x1 r0W)⟩]

/-- That one store covers the block. -/
theorem cover0_2 (p0 : Vec F S2048x256 .bf16) (y : S2048x256.Idx) :
    ∃ pc ∈ ([⟨r0X, p0⟩] : List (View.Piece (Elt F) S2048x256 .bf16)), y ∈ pc.1.set :=
  View.cover_of_tiled [⟨r0X, p0⟩] S2048x256.size (by rfl) y

set_option maxHeartbeats 1000000 in
/-- The body on whole staging memrefs: the inputs' contents are kept, the output's buffer ends at `out0_2` of them. -/
theorem sound_kernel0 (c : Dev nD) (E : Set ℕ) (i : grid0.Coords) (arg1 : Memref sig .tc .vmem S2048x256 .f32) (harg1 : arg1.IsWhole) (arg2 : Memref sig .tc .vmem S256x256 .f32) (harg2 : arg2.IsWhole)
    (arg3 : Memref sig .tc .vmem S2048x256 .bf16) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__xw_kernel i arg1 harg1 arg2 harg2 arg3 harg3) K := by
  simp only [cc0__xw_kernel_eq_skeleton]; unfold cc0__xw_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Region 0's proof data on core `c`: the arrays as the region finds them; the inputs' buffers keep their blocks,
    the output's holds the product of the point's blocks; the scoped rest and the generator register untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation to the pipeline, at every point. -/
theorem body_obligation0 (c : Dev nD) : BodyObligation (dat0 (F := F) V c) (defs₀ (F := F)) Variants.none () Set.univ := fun t => by
  rw [bigSep_W0, bigSep_W0]
  exact sound_body0 V c t

end Entry

end Cert.Kernel.Fr

end
-- ==== Proof.KRun1A.lean ====
/-
  The second region's body at the FIRST step along the contracted axis (and not the last): the accumulator is reset to zero, then the product of the point's block of the adjacency matrix with the matching 1024 rows of X·W is added to it; nothing is stored into the output's buffer.
-/
import proofs.«105310_j7602092114484_2_alg».proof.Proof.KFrameCommon

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's stores as lists of pieces (last first) for the output's buffer and for the accumulator, with the
    body's triple over them: the two input blocks keep their contents, the output's buffer is handed back as found, the accumulator
    ends with its pieces written. -/
noncomputable def kernelRun1_A (c : Dev nD) (i : grid1.Coords) (arg2 : Memref sig .tc .vmem S2048x1024 .f32) (harg2 : arg2.IsWhole) (arg3 : Memref sig .tc .vmem S16384x256 .bf16) (harg3 : arg3.IsWhole) (arg4 : Memref sig .tc .vmem S2048x256 .f32) (harg4 : arg4.IsWhole) (arg5 : Memref sig .tc .vmem S2048x256 .f32) (harg5 : arg5.IsWhole) (hc0 : cond1_0 i) (hc1 : ¬cond1_1 i)
    (x0 : Vec F S2048x1024 .f32) (x1 : Vec F S16384x256 .bf16) :
    Σ' (L2 : List (View.Piece (Elt F) S2048x256 .f32)), { LS : List (View.Piece (Elt F) S2048x256 .f32) //
      ∀ (xi2 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__gcn_kernel i arg2 harg2 arg3 harg3 arg4 harg4 arg5 harg5) K } := by
  refine ⟨[], ?_, fun xi2 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Fr

end
-- ==== Proof.KRun1B.lean ====
/-
  The second region's body at a MIDDLE step along the contracted axis (neither first nor last): the product of the point's block of the adjacency matrix with the matching 1024 rows of X·W is added to the accumulator the step before left; nothing is stored into the output's buffer.
-/
import proofs.«105310_j7602092114484_2_alg».proof.Proof.KFrameCommon

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's stores as lists of pieces (last first) for the output's buffer and for the accumulator, with the
    body's triple over them: the two input blocks keep their contents, the output's buffer is handed back as found, the accumulator
    ends with its pieces written. -/
noncomputable def kernelRun1_B (c : Dev nD) (i : grid1.Coords) (arg2 : Memref sig .tc .vmem S2048x1024 .f32) (harg2 : arg2.IsWhole) (arg3 : Memref sig .tc .vmem S16384x256 .bf16) (harg3 : arg3.IsWhole) (arg4 : Memref sig .tc .vmem S2048x256 .f32) (harg4 : arg4.IsWhole) (arg5 : Memref sig .tc .vmem S2048x256 .f32) (harg5 : arg5.IsWhole) (hc0 : ¬cond1_0 i) (hc1 : ¬cond1_1 i)
    (x0 : Vec F S2048x1024 .f32) (x1 : Vec F S16384x256 .bf16) (xs : Vec F S2048x256 .f32) :
    Σ' (L2 : List (View.Piece (Elt F) S2048x256 .f32)), { LS : List (View.Piece (Elt F) S2048x256 .f32) //
      ∀ (xi2 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__gcn_kernel i arg2 harg2 arg3 harg3 arg4 harg4 arg5 harg5) K } := by
  refine ⟨[], ?_, fun xi2 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Fr

end
-- ==== Proof.KRun1C.lean ====
/-
  The second region's body at the LAST step along the contracted axis (and not the first): the product of the point's block of the adjacency matrix with the matching 1024 rows of X·W is added to the accumulator the step before left, and the maximum of the accumulator and zero is stored over the whole output block.
-/
import proofs.«105310_j7602092114484_2_alg».proof.Proof.KFrameCommon

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's stores as lists of pieces (last first) for the output's buffer and for the accumulator, with the
    body's triple over them: the two input blocks keep their contents, the output's buffer ends with its pieces written, the accumulator
    ends with its pieces written. -/
noncomputable def kernelRun1_C (c : Dev nD) (i : grid1.Coords) (arg2 : Memref sig .tc .vmem S2048x1024 .f32) (harg2 : arg2.IsWhole) (arg3 : Memref sig .tc .vmem S16384x256 .bf16) (harg3 : arg3.IsWhole) (arg4 : Memref sig .tc .vmem S2048x256 .f32) (harg4 : arg4.IsWhole) (arg5 : Memref sig .tc .vmem S2048x256 .f32) (harg5 : arg5.IsWhole) (hc0 : ¬cond1_0 i) (hc1 : cond1_1 i)
    (x0 : Vec F S2048x1024 .f32) (x1 : Vec F S16384x256 .bf16) (xs : Vec F S2048x256 .f32) :
    Σ' (L2 : List (View.Piece (Elt F) S2048x256 .f32)), { LS : List (View.Piece (Elt F) S2048x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__gcn_kernel i arg2 harg2 arg3 harg3 arg4 harg4 arg5 harg5) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Fr

end
-- ==== Proof.KRegion1.lean ====
/-
  The second kernel region at any float instance. Its grid is 8 row blocks × 16 steps along the contracted axis;
  a scratch accumulator is carried from step to step: reset at a row block's first step, increased at every step
  by the product of the step's block of the adjacency matrix with the matching rows of X·W, and at the last step
  its maximum with zero is stored over the output block, which is written back only there. Stated here: what the
  accumulator holds after every point (by recursion on the point), what the output's buffer holds after a last
  step, the region's invariant (the accumulator at that contents), its proof data and the body obligation.
-/
import proofs.«105310_j7602092114484_2_alg».proof.Proof.KRun1A
import proofs.«105310_j7602092114484_2_alg».proof.Proof.KRun1B
import proofs.«105310_j7602092114484_2_alg».proof.Proof.KRun1C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

theorem scover1_A (c : Dev nD) (i : grid1.Coords) (arg2 : Memref sig .tc .vmem S2048x1024 .f32) (harg2 : arg2.IsWhole) (arg3 : Memref sig .tc .vmem S16384x256 .bf16) (harg3 : arg3.IsWhole) (arg4 : Memref sig .tc .vmem S2048x256 .f32) (harg4 : arg4.IsWhole) (arg5 : Memref sig .tc .vmem S2048x256 .f32) (harg5 : arg5.IsWhole) (hc0 : cond1_0 i) (hc1 : ¬cond1_1 i)
    (x0 : Vec F S2048x1024 .f32) (x1 : Vec F S16384x256 .bf16) (y : S2048x256.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S2048x256.size (by sl_kernel_rfl) y

/-- The accumulator after a first step. -/
def sout1_A (c : Dev nD) (i : grid1.Coords) (arg2 : Memref sig .tc .vmem S2048x1024 .f32) (harg2 : arg2.IsWhole) (arg3 : Memref sig .tc .vmem S16384x256 .bf16) (harg3 : arg3.IsWhole) (arg4 : Memref sig .tc .vmem S2048x256 .f32) (harg4 : arg4.IsWhole) (arg5 : Memref sig .tc .vmem S2048x256 .f32) (harg5 : arg5.IsWhole) (hc0 : cond1_0 i) (hc1 : ¬cond1_1 i)
    (x0 : Vec F S2048x1024 .f32) (x1 : Vec F S16384x256 .bf16) : Vec F S2048x256 .f32 :=
  VS1.read (Elt F) (VS1.writes (Elt F) VS1.junk (kernelRun1_A c i arg2 harg2 arg3 harg3 arg4 harg4 arg5 harg5 hc0 hc1 x0 x1).2.1)

theorem scover1_B (c : Dev nD) (i : grid1.Coords) (arg2 : Memref sig .tc .vmem S2048x1024 .f32) (harg2 : arg2.IsWhole) (arg3 : Memref sig .tc .vmem S16384x256 .bf16) (harg3 : arg3.IsWhole) (arg4 : Memref sig .tc .vmem S2048x256 .f32) (harg4 : arg4.IsWhole) (arg5 : Memref sig .tc .vmem S2048x256 .f32) (harg5 : arg5.IsWhole) (hc0 : ¬cond1_0 i) (hc1 : ¬cond1_1 i)
    (x0 : Vec F S2048x1024 .f32) (x1 : Vec F S16384x256 .bf16) (xs : Vec F S2048x256 .f32) (y : S2048x256.Idx) :
    ∃ pc ∈ (kernelRun1_B c i arg2 harg2 arg3 harg3 arg4 harg4 arg5 harg5 hc0 hc1 x0 x1 xs).2.1, y ∈ pc.1.set :=
  View.cover_of_tiledL (kernelRun1_B c i arg2 harg2 arg3 harg3 arg4 harg4 arg5 harg5 hc0 hc1 x0 x1 xs).2.1 S2048x256.size (by sl_kernel_rfl) y

/-- The accumulator after a middle step, from what the step before left. -/
def sout1_B (c : Dev nD) (i : grid1.Coords) (arg2 : Memref sig .tc .vmem S2048x1024 .f32) (harg2 : arg2.IsWhole) (arg3 : Memref sig .tc .vmem S16384x256 .bf16) (harg3 : arg3.IsWhole) (arg4 : Memref sig .tc .vmem S2048x256 .f32) (harg4 : arg4.IsWhole) (arg5 : Memref sig .tc .vmem S2048x256 .f32) (harg5 : arg5.IsWhole) (hc0 : ¬cond1_0 i) (hc1 : ¬cond1_1 i)
    (x0 : Vec F S2048x1024 .f32) (x1 : Vec F S16384x256 .bf16) (xs : Vec F S2048x256 .f32) : Vec F S2048x256 .f32 :=
  VS1.read (Elt F) (VS1.writes (Elt F) VS1.junk (kernelRun1_B c i arg2 harg2 arg3 harg3 arg4 harg4 arg5 harg5 hc0 hc1 x0 x1 xs).2.1)

theorem scover1_C (c : Dev nD) (i : grid1.Coords) (arg2 : Memref sig .tc .vmem S2048x1024 .f32) (harg2 : arg2.IsWhole) (arg3 : Memref sig .tc .vmem S16384x256 .bf16) (harg3 : arg3.IsWhole) (arg4 : Memref sig .tc .vmem S2048x256 .f32) (harg4 : arg4.IsWhole) (arg5 : Memref sig .tc .vmem S2048x256 .f32) (harg5 : arg5.IsWhole) (hc0 : ¬cond1_0 i) (hc1 : cond1_1 i)
    (x0 : Vec F S2048x1024 .f32) (x1 : Vec F S16384x256 .bf16) (xs : Vec F S2048x256 .f32) (y : S2048x256.Idx) :
    ∃ pc ∈ (kernelRun1_C c i arg2 harg2 arg3 harg3 arg4 harg4 arg5 harg5 hc0 hc1 x0 x1 xs).2.1, y ∈ pc.1.set :=
  View.cover_of_tiledL (kernelRun1_C c i arg2 harg2 arg3 harg3 arg4 harg4 arg5 harg5 hc0 hc1 x0 x1 xs).2.1 S2048x256.size (by sl_kernel_rfl) y

/-- The accumulator after a last step, from what the step before left. -/
def sout1_C (c : Dev nD) (i : grid1.Coords) (arg2 : Memref sig .tc .vmem S2048x1024 .f32) (harg2 : arg2.IsWhole) (arg3 : Memref sig .tc .vmem S16384x256 .bf16) (harg3 : arg3.IsWhole) (arg4 : Memref sig .tc .vmem S2048x256 .f32) (harg4 : arg4.IsWhole) (arg5 : Memref sig .tc .vmem S2048x256 .f32) (harg5 : arg5.IsWhole) (hc0 : ¬cond1_0 i) (hc1 : cond1_1 i)
    (x0 : Vec F S2048x1024 .f32) (x1 : Vec F S16384x256 .bf16) (xs : Vec F S2048x256 .f32) : Vec F S2048x256 .f32 :=
  VS1.read (Elt F) (VS1.writes (Elt F) VS1.junk (kernelRun1_C c i arg2 harg2 arg3 harg3 arg4 harg4 arg5 harg5 hc0 hc1 x0 x1 xs).2.1)

theorem cover1_C_2 (c : Dev nD) (i : grid1.Coords) (arg2 : Memref sig .tc .vmem S2048x1024 .f32) (harg2 : arg2.IsWhole) (arg3 : Memref sig .tc .vmem S16384x256 .bf16) (harg3 : arg3.IsWhole) (arg4 : Memref sig .tc .vmem S2048x256 .f32) (harg4 : arg4.IsWhole) (arg5 : Memref sig .tc .vmem S2048x256 .f32) (harg5 : arg5.IsWhole) (hc0 : ¬cond1_0 i) (hc1 : cond1_1 i)
    (x0 : Vec F S2048x1024 .f32) (x1 : Vec F S16384x256 .bf16) (xs : Vec F S2048x256 .f32) (y : S2048x256.Idx) :
    ∃ pc ∈ (kernelRun1_C c i arg2 harg2 arg3 harg3 arg4 harg4 arg5 harg5 hc0 hc1 x0 x1 xs).1, y ∈ pc.1.set :=
  View.cover_of_tiledL (kernelRun1_C c i arg2 harg2 arg3 harg3 arg4 harg4 arg5 harg5 hc0 hc1 x0 x1 xs).1 S2048x256.size (by sl_kernel_rfl) y

/-- The output block after a last step. -/
def out1_C_2 (c : Dev nD) (i : grid1.Coords) (arg2 : Memref sig .tc .vmem S2048x1024 .f32) (harg2 : arg2.IsWhole) (arg3 : Memref sig .tc .vmem S16384x256 .bf16) (harg3 : arg3.IsWhole) (arg4 : Memref sig .tc .vmem S2048x256 .f32) (harg4 : arg4.IsWhole) (arg5 : Memref sig .tc .vmem S2048x256 .f32) (harg5 : arg5.IsWhole) (hc0 : ¬cond1_0 i) (hc1 : cond1_1 i)
    (x0 : Vec F S2048x1024 .f32) (x1 : Vec F S16384x256 .bf16) (xs : Vec F S2048x256 .f32) : Vec F S2048x256 .f32 :=
  VO1_2.read (Elt F) (VO1_2.writes (Elt F) VO1_2.junk (kernelRun1_C c i arg2 harg2 arg3 harg3 arg4 harg4 arg5 harg5 hc0 hc1 x0 x1 xs).1)

section Entry
variable (V : (c : Dev nD) → (b : Ref sig .tc) → Buf (Elt F) ((c : Thread nD τ).loc b))

/-! ## The accumulator point by point -/

theorem N1 : cfg1.N = 128 := N_1

/-- What the accumulator holds after the body at position `n`: the case the closed forms select there, run on the
    point's blocks, over what position `n - 1` left (a first step does not look back). -/
def accAt (c : Dev nD) : (n : ℕ) → n < cfg1.N → Vec F S2048x256 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩)
  | n + 1, hn =>
    if h0 : (n + 1) % 16 = 0 then
      sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩)
    else
      if h1 : (n + 1) % 16 = 15 then
        sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (accAt c n (Nat.lt_of_succ_lt hn))
      else
        sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (accAt c n (Nat.lt_of_succ_lt hn))

theorem accAt_A (c : Dev nD) (t : Fin cfg1.N) (h0 : t.val % 16 = 0) (h1 : ¬t.val % 16 = 15) :
    accAt V c t.val t.isLt = sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t) := by
  obtain ⟨n, hn⟩ := t
  cases n with
  | zero => exact rfl
  | succ n => exact (dif_pos h0).trans rfl

theorem accAt_B (c : Dev nD) (t : Fin cfg1.N) (h0 : ¬t.val % 16 = 0) (h1 : ¬t.val % 16 = 15) :
    accAt V c t.val t.isLt = sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_C (c : Dev nD) (t : Fin cfg1.N) (h0 : ¬t.val % 16 = 0) (h1 : t.val % 16 = 15) :
    accAt V c t.val t.isLt = sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output's staging buffer holds after the body at point `t`: at a last step the stored block, over the
    accumulator the step before left; elsewhere nothing is stored (a placeholder nothing reads). -/
def outAt (c : Dev nD) (t : Fin cfg1.N) : Vec F S2048x256 .f32 :=
  if h1 : t.val % 16 = 15 then
    out1_C_2 c (grid1.coords t) (ms1_0 t) (hs1_0 t) (ms1_1 t) (hs1_1 t) (ms1_2 t) (hs1_2 t) scM1 (Memref.isWhole_whole _) (fun h => (fun h => by omega) ((hcond1_0 t).mp h)) ((hcond1_1 t).mpr h1) (iblk1 V c 0 t) (iblk1 V c 1 t) (accAt V c (t.val - 1) (Nat.lt_of_le_of_lt (Nat.sub_le _ _) t.isLt))
  else VO1_2.read (Elt F) VO1_2.junk

theorem outAt_C (c : Dev nD) (t : Fin cfg1.N) (h0 : ¬t.val % 16 = 0) (h1 : t.val % 16 = 15) :
    outAt V c t = out1_C_2 c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (accAt V c (t.val - 1) (Nat.lt_of_le_of_lt (Nat.sub_le _ _) t.isLt)) := by
  unfold outAt; exact dif_pos h1

/-! ## The region's invariant -/

/-- Region 1's scoped rest around the accumulator's resource `S`, and the generator register. -/
def scr (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S) ∗ (∃ r, prngReg c r))

theorem PhiA1_scr (c : Dev nD) : (Pipeline.ΦA spec1 c : sProp 𝕄) = scr c iprop(∃ d, owns (c : Thread nD τ) scM1 fullShare d) := by
  rw [PhiA1_eq]; rfl

/-- Before position `n`: at the region's entry the accumulator holds anything; afterwards what the point before left. -/
def PhiS (c : Dev nD) : (n : ℕ) → n ≤ cfg1.N → sProp 𝕄
  | 0, _ => Pipeline.ΦA spec1 c
  | n + 1, hn => scr c (owns (c : Thread nD τ) scM1 fullShare (accAt V c n hn))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = scr c (owns (c : Thread nD τ) scM1 fullShare (accAt V c n hn)) := rfl

theorem PhiS_pos (c : Dev nD) (n : ℕ) (h : n ≤ cfg1.N) (hz : n ≠ 0) :
    PhiS V c n h = scr c (owns (c : Thread nD τ) scM1 fullShare (accAt V c (n - 1) (by omega))) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the closed forms say which case the point is in; the invariant hands the body the
    accumulator at what the point before left (at anything at the region's first point) and takes it back at this
    point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 16 = 0
  · have h1 : ¬t.val % 16 = 15 := by omega
    rw [Dat.leavesExact_idle (dat1 V c) 2 t (idleAt1_2 t (fun h => h1 ((hcond1_1 t).mp h))) (noFlush1_2 t (fun h => h1 ((hcond1_1 t).mp h)))]
    rw [accAt_A V c t h0 h1]
    unfold sout1_A; (try dsimp only)
    by_cases hz : t.val = 0
    · rw [PhiS_castSucc V c t, PhiS_zero V c _ _ hz, PhiA1_scr]
      unfold scr
      iintro ⟨⟨⟨R1, R2, R3, R4, R5, HS⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [R1 R2 R3 R4 R5 HS Hg]
      · isplitl [R1 R2 R3 R4 R5 HS]
        · isplitl [R1]; · iexact R1
          isplitl [R2]; · iexact R2
          isplitl [R3]; · iexact R3
          isplitl [R4]; · iexact R4
          isplitl [R5]; · iexact R5
          unfold owns; iexists _; isplitr
          swap; · iexact HS
          ipureintro; exact View.read_writes_of_cover _ _ _ _ _ (scover1_A c _ _ _ _ _ _ _ _ _ _ _ _ _)
        iexact Hg
      isplitl [Ho]; · iexact Ho
      isplitl [H0]; · iexact H0
      isplitl [H1]; · iexact H1
      iexists _; iexact H2
    · rw [PhiS_castSucc V c t, PhiS_pos V c _ _ hz]
      unfold scr
      iintro ⟨⟨⟨R1, R2, R3, R4, R5, HS⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [R1 R2 R3 R4 R5 HS Hg]
      · isplitl [R1 R2 R3 R4 R5 HS]
        · isplitl [R1]; · iexact R1
          isplitl [R2]; · iexact R2
          isplitl [R3]; · iexact R3
          isplitl [R4]; · iexact R4
          isplitl [R5]; · iexact R5
          unfold owns; iexists _; isplitr
          swap; · iexact HS
          ipureintro; exact View.read_writes_of_cover _ _ _ _ _ (scover1_A c _ _ _ _ _ _ _ _ _ _ _ _ _)
        iexact Hg
      isplitl [Ho]; · iexact Ho
      isplitl [H0]; · iexact H0
      isplitl [H1]; · iexact H1
      iexists _; iexact H2
  · have hz : t.val ≠ 0 := fun e => h0 (by rw [e])
    by_cases h1 : t.val % 16 = 15
    · rw [show (dat1 V c).leavesExact 2 t = owns (c : Thread nD τ) (ms1_2 t) fullShare ((dat1 V c).after 2 t) from by
        unfold Dat.leavesExact; rw [liveAt1_2 t ((hcond1_1 t).mpr h1)], after1_2]
      rw [accAt_C V c t h0 h1, outAt_C V c t h0 h1]
      unfold out1_C_2 sout1_C; (try dsimp only)
      rw [PhiS_castSucc V c t, PhiS_pos V c _ _ hz]
      unfold scr
      iintro ⟨⟨⟨R1, R2, R3, R4, R5, HS⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [R1 R2 R3 R4 R5 HS Hg]
      · isplitl [R1 R2 R3 R4 R5 HS]
        · isplitl [R1]; · iexact R1
          isplitl [R2]; · iexact R2
          isplitl [R3]; · iexact R3
          isplitl [R4]; · iexact R4
          isplitl [R5]; · iexact R5
          unfold owns; iexists _; isplitr
          swap; · iexact HS
          ipureintro; exact View.read_writes_of_cover _ _ _ _ _ (scover1_C c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [accAt_B V c t h0 h1]
      unfold sout1_B; (try dsimp only)
      rw [PhiS_castSucc V c t, PhiS_pos V c _ _ hz]
      unfold scr
      iintro ⟨⟨⟨R1, R2, R3, R4, R5, HS⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [R1 R2 R3 R4 R5 HS Hg]
      · isplitl [R1 R2 R3 R4 R5 HS]
        · isplitl [R1]; · iexact R1
          isplitl [R2]; · iexact R2
          isplitl [R3]; · iexact R3
          isplitl [R4]; · iexact R4
          isplitl [R5]; · iexact R5
          unfold owns; iexists _; isplitr
          swap; · iexact HS
          ipureintro; exact View.read_writes_of_cover _ _ _ _ _ (scover1_B c _ _ _ _ _ _ _ _ _ _ _ _ _ _)
        iexact Hg
      isplitl [Ho]; · iexact Ho
      isplitl [H0]; · iexact H0
      isplitl [H1]; · iexact H1
      iexists _; iexact H2

/-- The body's obligation to the pipeline, at every point. -/
theorem body_obligation1 (c : Dev nD) : BodyObligation (dat1 (F := F) V c) (defs₀ (F := F)) Variants.none () Set.univ := fun t => by
  rw [bigSep_W1, bigSep_W1]
  exact sound_body1 V c t

/-- What the region's entry hands the body is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped rest back: the accumulator's contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega), PhiA1_scr]
  unfold scr
  iintro ⟨⟨R1, R2, R3, R4, R5, HS⟩, Hg⟩
  isplitl [R1 R2 R3 R4 R5 HS]
  · isplitl [R1]; · iexact R1
    isplitl [R2]; · iexact R2
    isplitl [R3]; · iexact R3
    isplitl [R4]; · iexact R4
    isplitl [R5]; · iexact R5
    iexists _; iexact HS
  iexact Hg

end Entry

end Cert.Kernel.Fr

end
-- ==== Proof.KFrameRun.lean ====
/-
  The program's run at any float instance: its two kernel regions in sequence, from the launch memory to the return.
  The unscoped buffers' contents are followed through the run — at launch, after the first region (its arrays at
  what its write-backs leave, the rest untouched), after the second — and the run's final memory holds every
  unscoped buffer at the last of these. Read back from it: the three argument arrays are as launched, and the
  result array is what the second region's write-backs leave.
-/
import proofs.«105310_j7602092114484_2_alg».proof.Proof.KRegion0
import proofs.«105310_j7602092114484_2_alg».proof.Proof.KRegion1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the regions -/

/-- Core `c`'s buffers at launch. -/
abbrev E0 : Dev nD → Valuation τ sig (Elt F) := fun c b => (s₀ m ρ).mem ((c : Dev nD), b)
abbrev V0 : (c : Dev nD) → (b : Ref sig .tc) → Buf (Elt F) ((c : Thread nD τ).loc b) := fun c b => E0 m ρ c b
/-- After region 0: its arrays at what the pipeline leaves, every other buffer as before. -/
def E1 (c : Dev nD) : Valuation τ sig (Elt F) :=
  Pipeline.withArrays spec0 c (E0 m ρ c) fun w => (dat0 (V0 m ρ) c).arrAt w cfg0.N
theorem E1_arr (c : Dev nD) (w : Fin cfg0.W) :
    E1 m ρ c (Proc.devRef .tc (Pipeline.arrRef spec0 w)) = (dat0 (V0 m ρ) c).arrAt w cfg0.N := by
  unfold E1; exact Pipeline.withArrays_arr spec0 launch0.win.arr_inj c _ _ w
theorem E1_of_ne (c : Dev nD) (b : Ref sig .tc) (hb : ∀ w, Pipeline.arrRef spec0 w ≠ b) :
    E1 m ρ c (Proc.devRef .tc b) = E0 m ρ c (Proc.devRef .tc b) := by
  unfold E1; exact Pipeline.withArrays_of_ne spec0 c _ _ b hb
abbrev V1 : (c : Dev nD) → (b : Ref sig .tc) → Buf (Elt F) ((c : Thread nD τ).loc b) := fun c b => E1 m ρ c b
theorem hF0 (c : Dev nD) (w : Fin cfg0.W) : (dat0 (V0 m ρ) c).arrAt w cfg0.N = V1 m ρ c (Pipeline.arrRef spec0 w) :=
  (E1_arr m ρ c w).symm
theorem hrest0 (c : Dev nD) : ∀ b, b ∉ Finset.univ.image (Pipeline.arrRef spec0) → V1 m ρ c b = V0 m ρ c b :=
  fun b hb => E1_of_ne m ρ c b fun w e => hb (Finset.mem_image.mpr ⟨w, Finset.mem_univ _, e⟩)

/-- After region 1. -/
def E2 (c : Dev nD) : Valuation τ sig (Elt F) :=
  Pipeline.withArrays spec1 c (E1 m ρ c) fun w => (dat1 (V1 m ρ) c).arrAt w cfg1.N
theorem E2_arr (c : Dev nD) (w : Fin cfg1.W) :
    E2 m ρ c (Proc.devRef .tc (Pipeline.arrRef spec1 w)) = (dat1 (V1 m ρ) c).arrAt w cfg1.N := by
  unfold E2; exact Pipeline.withArrays_arr spec1 launch1.win.arr_inj c _ _ w
theorem E2_of_ne (c : Dev nD) (b : Ref sig .tc) (hb : ∀ w, Pipeline.arrRef spec1 w ≠ b) :
    E2 m ρ c (Proc.devRef .tc b) = E1 m ρ c (Proc.devRef .tc b) := by
  unfold E2; exact Pipeline.withArrays_of_ne spec1 c _ _ b hb
abbrev V2 : (c : Dev nD) → (b : Ref sig .tc) → Buf (Elt F) ((c : Thread nD τ).loc b) := fun c b => E2 m ρ c b
theorem hF1 (c : Dev nD) (w : Fin cfg1.W) : (dat1 (V1 m ρ) c).arrAt w cfg1.N = V2 m ρ c (Pipeline.arrRef spec1 w) :=
  (E2_arr m ρ c w).symm
theorem hrest1 (c : Dev nD) : ∀ b, b ∉ Finset.univ.image (Pipeline.arrRef spec1) → V2 m ρ c b = V1 m ρ c b :=
  fun b hb => E2_of_ne m ρ c b fun w e => hb (Finset.mem_image.mpr ⟨w, Finset.mem_univ _, e⟩)

/-! ## The arguments end as launched; the result is the second region's -/

theorem E2_main_arg0 (c : Dev nD) : E2 m ρ c (Proc.devRef .tc main_arg0) = m ((c : Thread nD τ).loc main_arg0) :=
  calc E2 m ρ c (Proc.devRef .tc main_arg0)
    _ = E1 m ρ c (Proc.devRef .tc main_arg0) := E2_of_ne m ρ c main_arg0 (by decide)
    _ = E0 m ρ c (Proc.devRef .tc main_arg0) := (E1_arr m ρ c 0).trans (((dat0 (V0 m ρ) c).arrAt_in 0 rfl _).trans (A_eq0 (V0 m ρ) c 0))
    _ = m ((c : Thread nD τ).loc main_arg0) := rfl

theorem E2_main_arg1 (c : Dev nD) : E2 m ρ c (Proc.devRef .tc main_arg1) = m ((c : Thread nD τ).loc main_arg1) :=
  calc E2 m ρ c (Proc.devRef .tc main_arg1)
    _ = E1 m ρ c (Proc.devRef .tc main_arg1) := (E2_arr m ρ c 0).trans (((dat1 (V1 m ρ) c).arrAt_in 0 rfl _).trans (A_eq1 (V1 m ρ) c 0))
    _ = E0 m ρ c (Proc.devRef .tc main_arg1) := E1_of_ne m ρ c main_arg1 (by decide)
    _ = m ((c : Thread nD τ).loc main_arg1) := rfl

theorem E2_main_arg2 (c : Dev nD) : E2 m ρ c (Proc.devRef .tc main_arg2) = m ((c : Thread nD τ).loc main_arg2) :=
  calc E2 m ρ c (Proc.devRef .tc main_arg2)
    _ = E1 m ρ c (Proc.devRef .tc main_arg2) := E2_of_ne m ρ c main_arg2 (by decide)
    _ = E0 m ρ c (Proc.devRef .tc main_arg2) := (E1_arr m ρ c 1).trans (((dat0 (V0 m ρ) c).arrAt_in 1 rfl _).trans (A_eq0 (V0 m ρ) c 1))
    _ = m ((c : Thread nD τ).loc main_arg2) := rfl

/-- The result array at the end: what the second region's write-backs leave. -/
theorem E2_main_v1 (c : Dev nD) : E2 m ρ c (Proc.devRef .tc main_v1) = (dat1 (V1 m ρ) c).arrAt 2 cfg1.N := E2_arr m ρ c 2

/-- X·W as the second region finds it: what the first region's write-backs leave. -/
theorem V1_main_v0 (c : Dev nD) : V1 m ρ c main_v0 = (dat0 (V0 m ρ) c).arrAt 2 cfg0.N := E1_arr m ρ c 2
/-- The adjacency matrix as the second region finds it: as launched. -/
theorem V1_main_arg1 (c : Dev nD) : V1 m ρ c main_arg1 = m ((c : Thread nD τ).loc main_arg1) := E1_of_ne m ρ c main_arg1 (by decide)

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (E2 m ρ c) ∗ ∃ r, prngReg c r)

/-! ## The regions as segments -/

set_option backward.isDefEq.respectTransparency.types false in
/-- Region 0 as a segment of the program: entered with every unscoped buffer at the contents before it, left with
    them at the contents after it; its arrays are split out of the unscoped buffers at entry and put back at exit;
    the generator register goes into the region's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (E0 m ρ c) ∗ R c)
  post c := iprop(StableHlo.held (c : Thread nD τ) (Pipeline.ucRefs τ sig) (E1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of the program: entered with every unscoped buffer at the contents before it, left with
    them at the contents after it; its arrays are split out of the unscoped buffers at entry and put back at exit;
    the generator register goes into the region's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (E1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .region (reg0 m ρ), .region (reg1 m ρ) ]

theorem main_run (c : Dev nD) : main (F := F) c = Pipeline.Seg.run (segs m ρ) := (main_chain c).trans (by chain_rfl)

set_option backward.isDefEq.respectTransparency.types false in
/-- From any memory with zero counters every weakly fair execution of the program terminates, nothing faulting, and
    the final memory holds every unscoped buffer at the contents followed above. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = E2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (E0 m ρ c)
        from Pipeline.unscopedBufs_held c (E0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = E2 m ρ c b)
    (hfin := fun c s' => by
      iintro ⟨⟨Hh, -⟩, HSI⟩
      unfold StableHlo.held
      imodintro
      iapply (pointsTo_read_all (Pipeline.ucRefs τ sig) (fun b => (((c : Thread nD τ)).1, b)) (E2 m ρ c) s')
      isplitl [Hh] <;> iassumption)
    (hQ := fun s h c => h c)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (E2_main_arg0 m ρ c),
     (h c _ (mem_uc main_arg1 (by decide))).trans (E2_main_arg1 m ρ c),
     (h c _ (mem_uc main_arg2 (by decide))).trans (E2_main_arg2 m ρ c)⟩) (run_main m ρ)

/-- The run with the result array named: what the second region's write-backs leave of it. -/
theorem run_result : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (E2_main_v1 m ρ c),
     (h c _ (mem_uc main_arg0 (by decide))).trans (E2_main_arg0 m ρ c),
     (h c _ (mem_uc main_arg1 (by decide))).trans (E2_main_arg1 m ρ c),
     (h c _ (mem_uc main_arg2 (by decide))).trans (E2_main_arg2 m ρ c)⟩) (run_main m ρ)

end Cert.Kernel.Fr

end
-- ==== Proof.FrameCommon.lean ====
/-
  What both kernel regions of the program share, at any float instance: the block of an array that a window
  stages at a grid point, the fact that an input window's current staging buffer holds that block whether or
  not the pipeline fetched it at the point, and — for the second region, whose body resets an accumulator at
  the first step along the contracted axis and stores its output at the last — the two branch conditions in
  closed form over the 8 × 16 grid, the points at which the output window is idle, and the accumulator's
  buffer taken out of the region's scoped rest.
-/
import proofs.«105310_j7602092114484_2_alg».proof.Proof.Gen.KernelIdeal.Launch
import proofs.«105310_j7602092114484_2_alg».proof.Proof.Gen.KernelIdeal.Skeleton
import proofs.«105310_j7602092114484_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
-- the TensorCore's buffer contents when a region is entered
variable (V : (c : Dev nD) → (b : Ref sig .tc) → Buf (Elt F) ((c : Thread nD τ).loc b))

/-! ## Region 0: row blocks of X, the whole of W -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of X is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- W, fetched once, is in its staging buffer at every point: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## Region 1: blocks of the adjacency matrix, the whole of X·W -/

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Entry

/-! ## Region 1's branch conditions over the grid -/

/-- "This is the first step along the contracted axis": the accumulator is reset. -/
abbrev cond1_0 (i : grid1.Coords) : Prop := (Scalar.cmpi .ne (Scalar.extui (Scalar.cmpi .eq (BitVec.ofNat 32 (i 1).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- "This is the last step along the contracted axis": the output block is stored. -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Away from the last step the output window is idle and not written back; -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- at the last step it is live. -/
theorem liveAt1_2 : ∀ t : Fin cfg1.N, cond1_1 (grid1.coords t) → cfg1.idle 2 (grid1.coords t) = false := by decide +kernel

/-! ## Region 1's memrefs -/

abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x256 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1 : Memref sig .tc .vmem S2048x256 .f32 := Memref.whole cc1_scratch0
abbrev VS1 : View sig .tc .vmem S2048x256 .f32 := (scM1).view
abbrev VO1_2 : View sig .tc .vmem S2048x256 .f32 := (Memref.whole cc1_stg2_0 : Memref sig .tc .vmem S2048x256 .f32).view

/-- Region 1's scoped rest with the accumulator taken out as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1 fullShare d)) ∗ (∃ r, prngReg c r)) := by
  unfold Pipeline.ΦA; rw [scopedRest1_eq]; simp only [scM1, owns_whole]; try rfl

end Cert.KernelIdeal.Fr

end
-- ==== Proof.Region0.lean ====
/-
  The first kernel region at any float instance: at each of its 8 grid points the body loads a block of 2048
  rows of X and the whole of W and stores, over the whole output block, their product (rounded to the output's
  format). Stated here: what the output's staging buffer holds after the body as a function of the two input
  blocks, the body's triple, the region's proof data and the body obligation at every point.
-/
import proofs.«105310_j7602092114484_2_alg».proof.Proof.FrameCommon

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

abbrev r0X : Rect S2048x256 := Rect.unit (s := S2048x256) ![0, 0] S2048x256.size inb_S2048x256_S2048x256_0_0
abbrev r0W : Rect S256x256 := Rect.unit (s := S256x256) ![0, 0] S256x256.size inb_S256x256_S256x256_0_0

/-- The output block after the body: one store of the product over the whole block. -/
def out0_2 (x0 : Vec F S2048x256 .f32) (x1 : Vec F S256x256 .f32) : Vec F S2048x256 .bf16 :=
  View.canon [⟨r0X, k0_pay1 (View.ld x0 r0X) (View.ld x1 r0W)⟩]

/-- That one store covers the block. -/
theorem cover0_2 (p0 : Vec F S2048x256 .bf16) (y : S2048x256.Idx) :
    ∃ pc ∈ ([⟨r0X, p0⟩] : List (View.Piece (Elt F) S2048x256 .bf16)), y ∈ pc.1.set :=
  View.cover_of_tiled [⟨r0X, p0⟩] S2048x256.size (by rfl) y

set_option maxHeartbeats 1000000 in
/-- The body on whole staging memrefs: the inputs' contents are kept, the output's buffer ends at `out0_2` of them. -/
theorem sound_kernel0 (c : Dev nD) (E : Set ℕ) (i : grid0.Coords) (arg1 : Memref sig .tc .vmem S2048x256 .f32) (harg1 : arg1.IsWhole) (arg2 : Memref sig .tc .vmem S256x256 .f32) (harg2 : arg2.IsWhole)
    (arg3 : Memref sig .tc .vmem S2048x256 .bf16) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__xw_kernel i arg1 harg1 arg2 harg2 arg3 harg3) K := by
  simp only [cc0__xw_kernel_eq_skeleton]; unfold cc0__xw_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Region 0's proof data on core `c`: the arrays as the region finds them; the inputs' buffers keep their blocks,
    the output's holds the product of the point's blocks; the scoped rest and the generator register untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation to the pipeline, at every point. -/
theorem body_obligation0 (c : Dev nD) : BodyObligation (dat0 (F := F) V c) (defs₀ (F := F)) Variants.none () Set.univ := fun t => by
  rw [bigSep_W0, bigSep_W0]
  exact sound_body0 V c t

end Entry

end Cert.KernelIdeal.Fr

end
-- ==== Proof.Run1A.lean ====
/-
  The second region's body at the FIRST step along the contracted axis (and not the last): the accumulator is reset to zero, then the product of the point's block of the adjacency matrix with the matching 1024 rows of X·W is added to it; nothing is stored into the output's buffer.
-/
import proofs.«105310_j7602092114484_2_alg».proof.Proof.FrameCommon

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's stores as lists of pieces (last first) for the output's buffer and for the accumulator, with the
    body's triple over them: the two input blocks keep their contents, the output's buffer is handed back as found, the accumulator
    ends with its pieces written. -/
noncomputable def kernelRun1_A (c : Dev nD) (i : grid1.Coords) (arg2 : Memref sig .tc .vmem S2048x1024 .f32) (harg2 : arg2.IsWhole) (arg3 : Memref sig .tc .vmem S16384x256 .bf16) (harg3 : arg3.IsWhole) (arg4 : Memref sig .tc .vmem S2048x256 .f32) (harg4 : arg4.IsWhole) (arg5 : Memref sig .tc .vmem S2048x256 .f32) (harg5 : arg5.IsWhole) (hc0 : cond1_0 i) (hc1 : ¬cond1_1 i)
    (x0 : Vec F S2048x1024 .f32) (x1 : Vec F S16384x256 .bf16) :
    Σ' (L2 : List (View.Piece (Elt F) S2048x256 .f32)), { LS : List (View.Piece (Elt F) S2048x256 .f32) //
      ∀ (xi2 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__gcn_kernel i arg2 harg2 arg3 harg3 arg4 harg4 arg5 harg5) K } := by
  refine ⟨[], ?_, fun xi2 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Fr

end
-- ==== Proof.Run1B.lean ====
/-
  The second region's body at a MIDDLE step along the contracted axis (neither first nor last): the product of the point's block of the adjacency matrix with the matching 1024 rows of X·W is added to the accumulator the step before left; nothing is stored into the output's buffer.
-/
import proofs.«105310_j7602092114484_2_alg».proof.Proof.FrameCommon

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's stores as lists of pieces (last first) for the output's buffer and for the accumulator, with the
    body's triple over them: the two input blocks keep their contents, the output's buffer is handed back as found, the accumulator
    ends with its pieces written. -/
noncomputable def kernelRun1_B (c : Dev nD) (i : grid1.Coords) (arg2 : Memref sig .tc .vmem S2048x1024 .f32) (harg2 : arg2.IsWhole) (arg3 : Memref sig .tc .vmem S16384x256 .bf16) (harg3 : arg3.IsWhole) (arg4 : Memref sig .tc .vmem S2048x256 .f32) (harg4 : arg4.IsWhole) (arg5 : Memref sig .tc .vmem S2048x256 .f32) (harg5 : arg5.IsWhole) (hc0 : ¬cond1_0 i) (hc1 : ¬cond1_1 i)
    (x0 : Vec F S2048x1024 .f32) (x1 : Vec F S16384x256 .bf16) (xs : Vec F S2048x256 .f32) :
    Σ' (L2 : List (View.Piece (Elt F) S2048x256 .f32)), { LS : List (View.Piece (Elt F) S2048x256 .f32) //
      ∀ (xi2 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__gcn_kernel i arg2 harg2 arg3 harg3 arg4 harg4 arg5 harg5) K } := by
  refine ⟨[], ?_, fun xi2 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Fr

end
-- ==== Proof.Run1C.lean ====
/-
  The second region's body at the LAST step along the contracted axis (and not the first): the product of the point's block of the adjacency matrix with the matching 1024 rows of X·W is added to the accumulator the step before left, and the maximum of the accumulator and zero is stored over the whole output block.
-/
import proofs.«105310_j7602092114484_2_alg».proof.Proof.FrameCommon

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's stores as lists of pieces (last first) for the output's buffer and for the accumulator, with the
    body's triple over them: the two input blocks keep their contents, the output's buffer ends with its pieces written, the accumulator
    ends with its pieces written. -/
noncomputable def kernelRun1_C (c : Dev nD) (i : grid1.Coords) (arg2 : Memref sig .tc .vmem S2048x1024 .f32) (harg2 : arg2.IsWhole) (arg3 : Memref sig .tc .vmem S16384x256 .bf16) (harg3 : arg3.IsWhole) (arg4 : Memref sig .tc .vmem S2048x256 .f32) (harg4 : arg4.IsWhole) (arg5 : Memref sig .tc .vmem S2048x256 .f32) (harg5 : arg5.IsWhole) (hc0 : ¬cond1_0 i) (hc1 : cond1_1 i)
    (x0 : Vec F S2048x1024 .f32) (x1 : Vec F S16384x256 .bf16) (xs : Vec F S2048x256 .f32) :
    Σ' (L2 : List (View.Piece (Elt F) S2048x256 .f32)), { LS : List (View.Piece (Elt F) S2048x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__gcn_kernel i arg2 harg2 arg3 harg3 arg4 harg4 arg5 harg5) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Fr

end
-- ==== Proof.Region1.lean ====
/-
  The second kernel region at any float instance. Its grid is 8 row blocks × 16 steps along the contracted axis;
  a scratch accumulator is carried from step to step: reset at a row block's first step, increased at every step
  by the product of the step's block of the adjacency matrix with the matching rows of X·W, and at the last step
  its maximum with zero is stored over the output block, which is written back only there. Stated here: what the
  accumulator holds after every point (by recursion on the point), what the output's buffer holds after a last
  step, the region's invariant (the accumulator at that contents), its proof data and the body obligation.
-/
import proofs.«105310_j7602092114484_2_alg».proof.Proof.Run1A
import proofs.«105310_j7602092114484_2_alg».proof.Proof.Run1B
import proofs.«105310_j7602092114484_2_alg».proof.Proof.Run1C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

theorem scover1_A (c : Dev nD) (i : grid1.Coords) (arg2 : Memref sig .tc .vmem S2048x1024 .f32) (harg2 : arg2.IsWhole) (arg3 : Memref sig .tc .vmem S16384x256 .bf16) (harg3 : arg3.IsWhole) (arg4 : Memref sig .tc .vmem S2048x256 .f32) (harg4 : arg4.IsWhole) (arg5 : Memref sig .tc .vmem S2048x256 .f32) (harg5 : arg5.IsWhole) (hc0 : cond1_0 i) (hc1 : ¬cond1_1 i)
    (x0 : Vec F S2048x1024 .f32) (x1 : Vec F S16384x256 .bf16) (y : S2048x256.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S2048x256.size (by sl_kernel_rfl) y

/-- The accumulator after a first step. -/
def sout1_A (c : Dev nD) (i : grid1.Coords) (arg2 : Memref sig .tc .vmem S2048x1024 .f32) (harg2 : arg2.IsWhole) (arg3 : Memref sig .tc .vmem S16384x256 .bf16) (harg3 : arg3.IsWhole) (arg4 : Memref sig .tc .vmem S2048x256 .f32) (harg4 : arg4.IsWhole) (arg5 : Memref sig .tc .vmem S2048x256 .f32) (harg5 : arg5.IsWhole) (hc0 : cond1_0 i) (hc1 : ¬cond1_1 i)
    (x0 : Vec F S2048x1024 .f32) (x1 : Vec F S16384x256 .bf16) : Vec F S2048x256 .f32 :=
  VS1.read (Elt F) (VS1.writes (Elt F) VS1.junk (kernelRun1_A c i arg2 harg2 arg3 harg3 arg4 harg4 arg5 harg5 hc0 hc1 x0 x1).2.1)

theorem scover1_B (c : Dev nD) (i : grid1.Coords) (arg2 : Memref sig .tc .vmem S2048x1024 .f32) (harg2 : arg2.IsWhole) (arg3 : Memref sig .tc .vmem S16384x256 .bf16) (harg3 : arg3.IsWhole) (arg4 : Memref sig .tc .vmem S2048x256 .f32) (harg4 : arg4.IsWhole) (arg5 : Memref sig .tc .vmem S2048x256 .f32) (harg5 : arg5.IsWhole) (hc0 : ¬cond1_0 i) (hc1 : ¬cond1_1 i)
    (x0 : Vec F S2048x1024 .f32) (x1 : Vec F S16384x256 .bf16) (xs : Vec F S2048x256 .f32) (y : S2048x256.Idx) :
    ∃ pc ∈ (kernelRun1_B c i arg2 harg2 arg3 harg3 arg4 harg4 arg5 harg5 hc0 hc1 x0 x1 xs).2.1, y ∈ pc.1.set :=
  View.cover_of_tiledL (kernelRun1_B c i arg2 harg2 arg3 harg3 arg4 harg4 arg5 harg5 hc0 hc1 x0 x1 xs).2.1 S2048x256.size (by sl_kernel_rfl) y

/-- The accumulator after a middle step, from what the step before left. -/
def sout1_B (c : Dev nD) (i : grid1.Coords) (arg2 : Memref sig .tc .vmem S2048x1024 .f32) (harg2 : arg2.IsWhole) (arg3 : Memref sig .tc .vmem S16384x256 .bf16) (harg3 : arg3.IsWhole) (arg4 : Memref sig .tc .vmem S2048x256 .f32) (harg4 : arg4.IsWhole) (arg5 : Memref sig .tc .vmem S2048x256 .f32) (harg5 : arg5.IsWhole) (hc0 : ¬cond1_0 i) (hc1 : ¬cond1_1 i)
    (x0 : Vec F S2048x1024 .f32) (x1 : Vec F S16384x256 .bf16) (xs : Vec F S2048x256 .f32) : Vec F S2048x256 .f32 :=
  VS1.read (Elt F) (VS1.writes (Elt F) VS1.junk (kernelRun1_B c i arg2 harg2 arg3 harg3 arg4 harg4 arg5 harg5 hc0 hc1 x0 x1 xs).2.1)

theorem scover1_C (c : Dev nD) (i : grid1.Coords) (arg2 : Memref sig .tc .vmem S2048x1024 .f32) (harg2 : arg2.IsWhole) (arg3 : Memref sig .tc .vmem S16384x256 .bf16) (harg3 : arg3.IsWhole) (arg4 : Memref sig .tc .vmem S2048x256 .f32) (harg4 : arg4.IsWhole) (arg5 : Memref sig .tc .vmem S2048x256 .f32) (harg5 : arg5.IsWhole) (hc0 : ¬cond1_0 i) (hc1 : cond1_1 i)
    (x0 : Vec F S2048x1024 .f32) (x1 : Vec F S16384x256 .bf16) (xs : Vec F S2048x256 .f32) (y : S2048x256.Idx) :
    ∃ pc ∈ (kernelRun1_C c i arg2 harg2 arg3 harg3 arg4 harg4 arg5 harg5 hc0 hc1 x0 x1 xs).2.1, y ∈ pc.1.set :=
  View.cover_of_tiledL (kernelRun1_C c i arg2 harg2 arg3 harg3 arg4 harg4 arg5 harg5 hc0 hc1 x0 x1 xs).2.1 S2048x256.size (by sl_kernel_rfl) y

/-- The accumulator after a last step, from what the step before left. -/
def sout1_C (c : Dev nD) (i : grid1.Coords) (arg2 : Memref sig .tc .vmem S2048x1024 .f32) (harg2 : arg2.IsWhole) (arg3 : Memref sig .tc .vmem S16384x256 .bf16) (harg3 : arg3.IsWhole) (arg4 : Memref sig .tc .vmem S2048x256 .f32) (harg4 : arg4.IsWhole) (arg5 : Memref sig .tc .vmem S2048x256 .f32) (harg5 : arg5.IsWhole) (hc0 : ¬cond1_0 i) (hc1 : cond1_1 i)
    (x0 : Vec F S2048x1024 .f32) (x1 : Vec F S16384x256 .bf16) (xs : Vec F S2048x256 .f32) : Vec F S2048x256 .f32 :=
  VS1.read (Elt F) (VS1.writes (Elt F) VS1.junk (kernelRun1_C c i arg2 harg2 arg3 harg3 arg4 harg4 arg5 harg5 hc0 hc1 x0 x1 xs).2.1)

theorem cover1_C_2 (c : Dev nD) (i : grid1.Coords) (arg2 : Memref sig .tc .vmem S2048x1024 .f32) (harg2 : arg2.IsWhole) (arg3 : Memref sig .tc .vmem S16384x256 .bf16) (harg3 : arg3.IsWhole) (arg4 : Memref sig .tc .vmem S2048x256 .f32) (harg4 : arg4.IsWhole) (arg5 : Memref sig .tc .vmem S2048x256 .f32) (harg5 : arg5.IsWhole) (hc0 : ¬cond1_0 i) (hc1 : cond1_1 i)
    (x0 : Vec F S2048x1024 .f32) (x1 : Vec F S16384x256 .bf16) (xs : Vec F S2048x256 .f32) (y : S2048x256.Idx) :
    ∃ pc ∈ (kernelRun1_C c i arg2 harg2 arg3 harg3 arg4 harg4 arg5 harg5 hc0 hc1 x0 x1 xs).1, y ∈ pc.1.set :=
  View.cover_of_tiledL (kernelRun1_C c i arg2 harg2 arg3 harg3 arg4 harg4 arg5 harg5 hc0 hc1 x0 x1 xs).1 S2048x256.size (by sl_kernel_rfl) y

/-- The output block after a last step. -/
def out1_C_2 (c : Dev nD) (i : grid1.Coords) (arg2 : Memref sig .tc .vmem S2048x1024 .f32) (harg2 : arg2.IsWhole) (arg3 : Memref sig .tc .vmem S16384x256 .bf16) (harg3 : arg3.IsWhole) (arg4 : Memref sig .tc .vmem S2048x256 .f32) (harg4 : arg4.IsWhole) (arg5 : Memref sig .tc .vmem S2048x256 .f32) (harg5 : arg5.IsWhole) (hc0 : ¬cond1_0 i) (hc1 : cond1_1 i)
    (x0 : Vec F S2048x1024 .f32) (x1 : Vec F S16384x256 .bf16) (xs : Vec F S2048x256 .f32) : Vec F S2048x256 .f32 :=
  VO1_2.read (Elt F) (VO1_2.writes (Elt F) VO1_2.junk (kernelRun1_C c i arg2 harg2 arg3 harg3 arg4 harg4 arg5 harg5 hc0 hc1 x0 x1 xs).1)

section Entry
variable (V : (c : Dev nD) → (b : Ref sig .tc) → Buf (Elt F) ((c : Thread nD τ).loc b))

/-! ## The accumulator point by point -/

theorem N1 : cfg1.N = 128 := N_1

/-- What the accumulator holds after the body at position `n`: the case the closed forms select there, run on the
    point's blocks, over what position `n - 1` left (a first step does not look back). -/
def accAt (c : Dev nD) : (n : ℕ) → n < cfg1.N → Vec F S2048x256 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩)
  | n + 1, hn =>
    if h0 : (n + 1) % 16 = 0 then
      sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩)
    else
      if h1 : (n + 1) % 16 = 15 then
        sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (accAt c n (Nat.lt_of_succ_lt hn))
      else
        sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (accAt c n (Nat.lt_of_succ_lt hn))

theorem accAt_A (c : Dev nD) (t : Fin cfg1.N) (h0 : t.val % 16 = 0) (h1 : ¬t.val % 16 = 15) :
    accAt V c t.val t.isLt = sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t) := by
  obtain ⟨n, hn⟩ := t
  cases n with
  | zero => exact rfl
  | succ n => exact (dif_pos h0).trans rfl

theorem accAt_B (c : Dev nD) (t : Fin cfg1.N) (h0 : ¬t.val % 16 = 0) (h1 : ¬t.val % 16 = 15) :
    accAt V c t.val t.isLt = sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_C (c : Dev nD) (t : Fin cfg1.N) (h0 : ¬t.val % 16 = 0) (h1 : t.val % 16 = 15) :
    accAt V c t.val t.isLt = sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output's staging buffer holds after the body at point `t`: at a last step the stored block, over the
    accumulator the step before left; elsewhere nothing is stored (a placeholder nothing reads). -/
def outAt (c : Dev nD) (t : Fin cfg1.N) : Vec F S2048x256 .f32 :=
  if h1 : t.val % 16 = 15 then
    out1_C_2 c (grid1.coords t) (ms1_0 t) (hs1_0 t) (ms1_1 t) (hs1_1 t) (ms1_2 t) (hs1_2 t) scM1 (Memref.isWhole_whole _) (fun h => (fun h => by omega) ((hcond1_0 t).mp h)) ((hcond1_1 t).mpr h1) (iblk1 V c 0 t) (iblk1 V c 1 t) (accAt V c (t.val - 1) (Nat.lt_of_le_of_lt (Nat.sub_le _ _) t.isLt))
  else VO1_2.read (Elt F) VO1_2.junk

theorem outAt_C (c : Dev nD) (t : Fin cfg1.N) (h0 : ¬t.val % 16 = 0) (h1 : t.val % 16 = 15) :
    outAt V c t = out1_C_2 c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (accAt V c (t.val - 1) (Nat.lt_of_le_of_lt (Nat.sub_le _ _) t.isLt)) := by
  unfold outAt; exact dif_pos h1

/-! ## The region's invariant -/

/-- Region 1's scoped rest around the accumulator's resource `S`, and the generator register. -/
def scr (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S) ∗ (∃ r, prngReg c r))

theorem PhiA1_scr (c : Dev nD) : (Pipeline.ΦA spec1 c : sProp 𝕄) = scr c iprop(∃ d, owns (c : Thread nD τ) scM1 fullShare d) := by
  rw [PhiA1_eq]; rfl

/-- Before position `n`: at the region's entry the accumulator holds anything; afterwards what the point before left. -/
def PhiS (c : Dev nD) : (n : ℕ) → n ≤ cfg1.N → sProp 𝕄
  | 0, _ => Pipeline.ΦA spec1 c
  | n + 1, hn => scr c (owns (c : Thread nD τ) scM1 fullShare (accAt V c n hn))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = scr c (owns (c : Thread nD τ) scM1 fullShare (accAt V c n hn)) := rfl

theorem PhiS_pos (c : Dev nD) (n : ℕ) (h : n ≤ cfg1.N) (hz : n ≠ 0) :
    PhiS V c n h = scr c (owns (c : Thread nD τ) scM1 fullShare (accAt V c (n - 1) (by omega))) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the closed forms say which case the point is in; the invariant hands the body the
    accumulator at what the point before left (at anything at the region's first point) and takes it back at this
    point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 16 = 0
  · have h1 : ¬t.val % 16 = 15 := by omega
    rw [Dat.leavesExact_idle (dat1 V c) 2 t (idleAt1_2 t (fun h => h1 ((hcond1_1 t).mp h))) (noFlush1_2 t (fun h => h1 ((hcond1_1 t).mp h)))]
    rw [accAt_A V c t h0 h1]
    unfold sout1_A; (try dsimp only)
    by_cases hz : t.val = 0
    · rw [PhiS_castSucc V c t, PhiS_zero V c _ _ hz, PhiA1_scr]
      unfold scr
      iintro ⟨⟨⟨R1, R2, R3, R4, R5, HS⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [R1 R2 R3 R4 R5 HS Hg]
      · isplitl [R1 R2 R3 R4 R5 HS]
        · isplitl [R1]; · iexact R1
          isplitl [R2]; · iexact R2
          isplitl [R3]; · iexact R3
          isplitl [R4]; · iexact R4
          isplitl [R5]; · iexact R5
          unfold owns; iexists _; isplitr
          swap; · iexact HS
          ipureintro; exact View.read_writes_of_cover _ _ _ _ _ (scover1_A c _ _ _ _ _ _ _ _ _ _ _ _ _)
        iexact Hg
      isplitl [Ho]; · iexact Ho
      isplitl [H0]; · iexact H0
      isplitl [H1]; · iexact H1
      iexists _; iexact H2
    · rw [PhiS_castSucc V c t, PhiS_pos V c _ _ hz]
      unfold scr
      iintro ⟨⟨⟨R1, R2, R3, R4, R5, HS⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [R1 R2 R3 R4 R5 HS Hg]
      · isplitl [R1 R2 R3 R4 R5 HS]
        · isplitl [R1]; · iexact R1
          isplitl [R2]; · iexact R2
          isplitl [R3]; · iexact R3
          isplitl [R4]; · iexact R4
          isplitl [R5]; · iexact R5
          unfold owns; iexists _; isplitr
          swap; · iexact HS
          ipureintro; exact View.read_writes_of_cover _ _ _ _ _ (scover1_A c _ _ _ _ _ _ _ _ _ _ _ _ _)
        iexact Hg
      isplitl [Ho]; · iexact Ho
      isplitl [H0]; · iexact H0
      isplitl [H1]; · iexact H1
      iexists _; iexact H2
  · have hz : t.val ≠ 0 := fun e => h0 (by rw [e])
    by_cases h1 : t.val % 16 = 15
    · rw [show (dat1 V c).leavesExact 2 t = owns (c : Thread nD τ) (ms1_2 t) fullShare ((dat1 V c).after 2 t) from by
        unfold Dat.leavesExact; rw [liveAt1_2 t ((hcond1_1 t).mpr h1)], after1_2]
      rw [accAt_C V c t h0 h1, outAt_C V c t h0 h1]
      unfold out1_C_2 sout1_C; (try dsimp only)
      rw [PhiS_castSucc V c t, PhiS_pos V c _ _ hz]
      unfold scr
      iintro ⟨⟨⟨R1, R2, R3, R4, R5, HS⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [R1 R2 R3 R4 R5 HS Hg]
      · isplitl [R1 R2 R3 R4 R5 HS]
        · isplitl [R1]; · iexact R1
          isplitl [R2]; · iexact R2
          isplitl [R3]; · iexact R3
          isplitl [R4]; · iexact R4
          isplitl [R5]; · iexact R5
          unfold owns; iexists _; isplitr
          swap; · iexact HS
          ipureintro; exact View.read_writes_of_cover _ _ _ _ _ (scover1_C c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [accAt_B V c t h0 h1]
      unfold sout1_B; (try dsimp only)
      rw [PhiS_castSucc V c t, PhiS_pos V c _ _ hz]
      unfold scr
      iintro ⟨⟨⟨R1, R2, R3, R4, R5, HS⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [R1 R2 R3 R4 R5 HS Hg]
      · isplitl [R1 R2 R3 R4 R5 HS]
        · isplitl [R1]; · iexact R1
          isplitl [R2]; · iexact R2
          isplitl [R3]; · iexact R3
          isplitl [R4]; · iexact R4
          isplitl [R5]; · iexact R5
          unfold owns; iexists _; isplitr
          swap; · iexact HS
          ipureintro; exact View.read_writes_of_cover _ _ _ _ _ (scover1_B c _ _ _ _ _ _ _ _ _ _ _ _ _ _)
        iexact Hg
      isplitl [Ho]; · iexact Ho
      isplitl [H0]; · iexact H0
      isplitl [H1]; · iexact H1
      iexists _; iexact H2

/-- The body's obligation to the pipeline, at every point. -/
theorem body_obligation1 (c : Dev nD) : BodyObligation (dat1 (F := F) V c) (defs₀ (F := F)) Variants.none () Set.univ := fun t => by
  rw [bigSep_W1, bigSep_W1]
  exact sound_body1 V c t

/-- What the region's entry hands the body is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped rest back: the accumulator's contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega), PhiA1_scr]
  unfold scr
  iintro ⟨⟨R1, R2, R3, R4, R5, HS⟩, Hg⟩
  isplitl [R1 R2 R3 R4 R5 HS]
  · isplitl [R1]; · iexact R1
    isplitl [R2]; · iexact R2
    isplitl [R3]; · iexact R3
    isplitl [R4]; · iexact R4
    isplitl [R5]; · iexact R5
    iexists _; iexact HS
  iexact Hg

end Entry

end Cert.KernelIdeal.Fr

end
-- ==== Proof.FrameRun.lean ====
/-
  The program's run at any float instance: its two kernel regions in sequence, from the launch memory to the return.
  The unscoped buffers' contents are followed through the run — at launch, after the first region (its arrays at
  what its write-backs leave, the rest untouched), after the second — and the run's final memory holds every
  unscoped buffer at the last of these. Read back from it: the three argument arrays are as launched, and the
  result array is what the second region's write-backs leave.
-/
import proofs.«105310_j7602092114484_2_alg».proof.Proof.Region0
import proofs.«105310_j7602092114484_2_alg».proof.Proof.Region1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the regions -/

/-- Core `c`'s buffers at launch. -/
abbrev E0 : Dev nD → Valuation τ sig (Elt F) := fun c b => (s₀ m ρ).mem ((c : Dev nD), b)
abbrev V0 : (c : Dev nD) → (b : Ref sig .tc) → Buf (Elt F) ((c : Thread nD τ).loc b) := fun c b => E0 m ρ c b
/-- After region 0: its arrays at what the pipeline leaves, every other buffer as before. -/
def E1 (c : Dev nD) : Valuation τ sig (Elt F) :=
  Pipeline.withArrays spec0 c (E0 m ρ c) fun w => (dat0 (V0 m ρ) c).arrAt w cfg0.N
theorem E1_arr (c : Dev nD) (w : Fin cfg0.W) :
    E1 m ρ c (Proc.devRef .tc (Pipeline.arrRef spec0 w)) = (dat0 (V0 m ρ) c).arrAt w cfg0.N := by
  unfold E1; exact Pipeline.withArrays_arr spec0 launch0.win.arr_inj c _ _ w
theorem E1_of_ne (c : Dev nD) (b : Ref sig .tc) (hb : ∀ w, Pipeline.arrRef spec0 w ≠ b) :
    E1 m ρ c (Proc.devRef .tc b) = E0 m ρ c (Proc.devRef .tc b) := by
  unfold E1; exact Pipeline.withArrays_of_ne spec0 c _ _ b hb
abbrev V1 : (c : Dev nD) → (b : Ref sig .tc) → Buf (Elt F) ((c : Thread nD τ).loc b) := fun c b => E1 m ρ c b
theorem hF0 (c : Dev nD) (w : Fin cfg0.W) : (dat0 (V0 m ρ) c).arrAt w cfg0.N = V1 m ρ c (Pipeline.arrRef spec0 w) :=
  (E1_arr m ρ c w).symm
theorem hrest0 (c : Dev nD) : ∀ b, b ∉ Finset.univ.image (Pipeline.arrRef spec0) → V1 m ρ c b = V0 m ρ c b :=
  fun b hb => E1_of_ne m ρ c b fun w e => hb (Finset.mem_image.mpr ⟨w, Finset.mem_univ _, e⟩)

/-- After region 1. -/
def E2 (c : Dev nD) : Valuation τ sig (Elt F) :=
  Pipeline.withArrays spec1 c (E1 m ρ c) fun w => (dat1 (V1 m ρ) c).arrAt w cfg1.N
theorem E2_arr (c : Dev nD) (w : Fin cfg1.W) :
    E2 m ρ c (Proc.devRef .tc (Pipeline.arrRef spec1 w)) = (dat1 (V1 m ρ) c).arrAt w cfg1.N := by
  unfold E2; exact Pipeline.withArrays_arr spec1 launch1.win.arr_inj c _ _ w
theorem E2_of_ne (c : Dev nD) (b : Ref sig .tc) (hb : ∀ w, Pipeline.arrRef spec1 w ≠ b) :
    E2 m ρ c (Proc.devRef .tc b) = E1 m ρ c (Proc.devRef .tc b) := by
  unfold E2; exact Pipeline.withArrays_of_ne spec1 c _ _ b hb
abbrev V2 : (c : Dev nD) → (b : Ref sig .tc) → Buf (Elt F) ((c : Thread nD τ).loc b) := fun c b => E2 m ρ c b
theorem hF1 (c : Dev nD) (w : Fin cfg1.W) : (dat1 (V1 m ρ) c).arrAt w cfg1.N = V2 m ρ c (Pipeline.arrRef spec1 w) :=
  (E2_arr m ρ c w).symm
theorem hrest1 (c : Dev nD) : ∀ b, b ∉ Finset.univ.image (Pipeline.arrRef spec1) → V2 m ρ c b = V1 m ρ c b :=
  fun b hb => E2_of_ne m ρ c b fun w e => hb (Finset.mem_image.mpr ⟨w, Finset.mem_univ _, e⟩)

/-! ## The arguments end as launched; the result is the second region's -/

theorem E2_main_arg0 (c : Dev nD) : E2 m ρ c (Proc.devRef .tc main_arg0) = m ((c : Thread nD τ).loc main_arg0) :=
  calc E2 m ρ c (Proc.devRef .tc main_arg0)
    _ = E1 m ρ c (Proc.devRef .tc main_arg0) := E2_of_ne m ρ c main_arg0 (by decide)
    _ = E0 m ρ c (Proc.devRef .tc main_arg0) := (E1_arr m ρ c 0).trans (((dat0 (V0 m ρ) c).arrAt_in 0 rfl _).trans (A_eq0 (V0 m ρ) c 0))
    _ = m ((c : Thread nD τ).loc main_arg0) := rfl

theorem E2_main_arg1 (c : Dev nD) : E2 m ρ c (Proc.devRef .tc main_arg1) = m ((c : Thread nD τ).loc main_arg1) :=
  calc E2 m ρ c (Proc.devRef .tc main_arg1)
    _ = E1 m ρ c (Proc.devRef .tc main_arg1) := (E2_arr m ρ c 0).trans (((dat1 (V1 m ρ) c).arrAt_in 0 rfl _).trans (A_eq1 (V1 m ρ) c 0))
    _ = E0 m ρ c (Proc.devRef .tc main_arg1) := E1_of_ne m ρ c main_arg1 (by decide)
    _ = m ((c : Thread nD τ).loc main_arg1) := rfl

theorem E2_main_arg2 (c : Dev nD) : E2 m ρ c (Proc.devRef .tc main_arg2) = m ((c : Thread nD τ).loc main_arg2) :=
  calc E2 m ρ c (Proc.devRef .tc main_arg2)
    _ = E1 m ρ c (Proc.devRef .tc main_arg2) := E2_of_ne m ρ c main_arg2 (by decide)
    _ = E0 m ρ c (Proc.devRef .tc main_arg2) := (E1_arr m ρ c 1).trans (((dat0 (V0 m ρ) c).arrAt_in 1 rfl _).trans (A_eq0 (V0 m ρ) c 1))
    _ = m ((c : Thread nD τ).loc main_arg2) := rfl

/-- The result array at the end: what the second region's write-backs leave. -/
theorem E2_main_v1 (c : Dev nD) : E2 m ρ c (Proc.devRef .tc main_v1) = (dat1 (V1 m ρ) c).arrAt 2 cfg1.N := E2_arr m ρ c 2

/-- X·W as the second region finds it: what the first region's write-backs leave. -/
theorem V1_main_v0 (c : Dev nD) : V1 m ρ c main_v0 = (dat0 (V0 m ρ) c).arrAt 2 cfg0.N := E1_arr m ρ c 2
/-- The adjacency matrix as the second region finds it: as launched. -/
theorem V1_main_arg1 (c : Dev nD) : V1 m ρ c main_arg1 = m ((c : Thread nD τ).loc main_arg1) := E1_of_ne m ρ c main_arg1 (by decide)

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (E2 m ρ c) ∗ ∃ r, prngReg c r)

/-! ## The regions as segments -/

set_option backward.isDefEq.respectTransparency.types false in
/-- Region 0 as a segment of the program: entered with every unscoped buffer at the contents before it, left with
    them at the contents after it; its arrays are split out of the unscoped buffers at entry and put back at exit;
    the generator register goes into the region's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (E0 m ρ c) ∗ R c)
  post c := iprop(StableHlo.held (c : Thread nD τ) (Pipeline.ucRefs τ sig) (E1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of the program: entered with every unscoped buffer at the contents before it, left with
    them at the contents after it; its arrays are split out of the unscoped buffers at entry and put back at exit;
    the generator register goes into the region's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (E1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .region (reg0 m ρ), .region (reg1 m ρ) ]

theorem main_run (c : Dev nD) : main (F := F) c = Pipeline.Seg.run (segs m ρ) := (main_chain c).trans (by chain_rfl)

set_option backward.isDefEq.respectTransparency.types false in
/-- From any memory with zero counters every weakly fair execution of the program terminates, nothing faulting, and
    the final memory holds every unscoped buffer at the contents followed above. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = E2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (E0 m ρ c)
        from Pipeline.unscopedBufs_held c (E0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = E2 m ρ c b)
    (hfin := fun c s' => by
      iintro ⟨⟨Hh, -⟩, HSI⟩
      unfold StableHlo.held
      imodintro
      iapply (pointsTo_read_all (Pipeline.ucRefs τ sig) (fun b => (((c : Thread nD τ)).1, b)) (E2 m ρ c) s')
      isplitl [Hh] <;> iassumption)
    (hQ := fun s h c => h c)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (E2_main_arg0 m ρ c),
     (h c _ (mem_uc main_arg1 (by decide))).trans (E2_main_arg1 m ρ c),
     (h c _ (mem_uc main_arg2 (by decide))).trans (E2_main_arg2 m ρ c)⟩) (run_main m ρ)

/-- The run with the result array named: what the second region's write-backs leave of it. -/
theorem run_result : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (E2_main_v1 m ρ c),
     (h c _ (mem_uc main_arg0 (by decide))).trans (E2_main_arg0 m ρ c),
     (h c _ (mem_uc main_arg1 (by decide))).trans (E2_main_arg1 m ρ c),
     (h c _ (mem_uc main_arg2 (by decide))).trans (E2_main_arg2 m ρ c)⟩) (run_main m ρ)

end Cert.KernelIdeal.Fr

end
-- ==== Proof.Payloads.lean ====
/-
  The kernel's four stored values, read at an index (r, c) of their [2048, 256] block, over the extended reals.

  * the first kernel stores the product of a [2048, 256] row block of X with W: at (p, c) it is Σ_a X(p,a) · W(a,c);
  * the second kernel first stores zero, then at each of its 16 steps stores the old value plus the product of a
    [2048, 1024] block of A with a [1024, 256] block of X·W: at (p, c) it is old(p,c) + Σ_j A(p,j) · XW(j,c);
    and at the last step stores max(value, 0).
  Over the extended reals a change of float format is the identity, a matrix product into the zero accumulator is
  the plain sum over the one contracted axis, and the elementwise maximum is max.
-/
import proofs.«105310_j7602092114484_2_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic

namespace Cert.KernelIdeal.Pay

open Cert.KernelIdeal Cert.KernelIdeal.Gen Idealize.ShloMosaic.ValueIdx

/-! ## The two matrix products' operand indices

For a product contracting the left operand's axis 1 with the right operand's axis 0, the left operand is read at
(row of the output, contraction coordinate) and the right one at (contraction coordinate, column of the output). -/

theorem lhs0_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs0_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs0_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs0_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

theorem lhs1_0 (i : S2048x256.Idx) (q : dot_S2048x1024_S1024x256_S2048x256_1_0_0_1_n_n.contr.Idx) :
    (dot_S2048x1024_S1024x256_S2048x256_1_0_0_1_n_n.lhsIdx i q 0).val = (i 0).val := by
  unfold DotDims.lhsIdx
  rw [dif_neg (show ¬(0 : Fin S2048x1024.rank) ∈ dot_S2048x1024_S1024x256_S2048x256_1_0_0_1_n_n.lhsBatch by decide), dif_pos (show (0 : Fin S2048x1024.rank) ∈ dot_S2048x1024_S1024x256_S2048x256_1_0_0_1_n_n.lhsNonContracting by decide)]
  rfl
theorem lhs1_1 (i : S2048x256.Idx) (q : dot_S2048x1024_S1024x256_S2048x256_1_0_0_1_n_n.contr.Idx) :
    (dot_S2048x1024_S1024x256_S2048x256_1_0_0_1_n_n.lhsIdx i q 1).val = (q ⟨0, by decide⟩).val :=
  dot_S2048x1024_S1024x256_S2048x256_1_0_0_1_n_n.lhsIdx_val_of_single rfl i q
theorem rhs1_0 (i : S2048x256.Idx) (q : dot_S2048x1024_S1024x256_S2048x256_1_0_0_1_n_n.contr.Idx) :
    (dot_S2048x1024_S1024x256_S2048x256_1_0_0_1_n_n.rhsIdx i q 0).val = (q ⟨0, by decide⟩).val :=
  dot_S2048x1024_S1024x256_S2048x256_1_0_0_1_n_n.rhsIdx_val_of_single rfl i q
theorem rhs1_1 (i : S2048x256.Idx) (q : dot_S2048x1024_S1024x256_S2048x256_1_0_0_1_n_n.contr.Idx) :
    (dot_S2048x1024_S1024x256_S2048x256_1_0_0_1_n_n.rhsIdx i q 1).val = (i 1).val := by
  unfold DotDims.rhsIdx
  rw [dif_neg (show ¬(1 : Fin S1024x256.rank) ∈ dot_S2048x1024_S1024x256_S2048x256_1_0_0_1_n_n.rhsBatch by decide), dif_pos (show (1 : Fin S1024x256.rank) ∈ dot_S2048x1024_S1024x256_S2048x256_1_0_0_1_n_n.rhsNonContracting by decide)]
  rfl

/-! ## The two matrix products into the zero accumulator, at an index -/

/-- [2048, 256] · [256, 256] at (p, c): the sum over the 256 contracted coordinates. -/
theorem matmul0_apply (l : FVec Ideal S2048x256 .bf16) (r : FVec Ideal S256x256 .bf16) (p : Fin 2048) (c : Fin 256) :
    FloatOps.matmul dot_S2048x256_S256x256_S2048x256_1_0_0_1_n_n none l r (constant (F := Ideal) S2048x256 .f32 0x00000000#32) (ix2 p c)
      = ∑ a : Fin 256, l (ix2 p a) * r (ix2 a c) := by
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p c) ((contrEquiv1 dot_S2048x256_S256x256_S2048x256_1_0_0_1_n_n 256 rfl rfl).symm k) = ix2 p k := funext fun a => Fin.ext (by
    match a with
    | ⟨0, _⟩ => exact lhs0_0 _ _
    | ⟨1, _⟩ => exact (lhs0_1 _ _).trans hk)
  have er : dot_S2048x256_S256x256_S2048x256_1_0_0_1_n_n.rhsIdx (ix2 p c) ((contrEquiv1 dot_S2048x256_S256x256_S2048x256_1_0_0_1_n_n 256 rfl rfl).symm k) = ix2 k c := funext fun a => Fin.ext (by
    match a with
    | ⟨0, _⟩ => exact (rhs0_0 _ _).trans hk
    | ⟨1, _⟩ => exact rhs0_1 _ _)
  rw [el, er]

/-- [2048, 1024] · [1024, 256] at (p, c): the sum over the 1024 contracted coordinates. -/
theorem matmul1_apply (l : FVec Ideal S2048x1024 .bf16) (r : FVec Ideal S1024x256 .bf16) (p : Fin 2048) (c : Fin 256) :
    FloatOps.matmul dot_S2048x1024_S1024x256_S2048x256_1_0_0_1_n_n none l r (constant (F := Ideal) S2048x256 .f32 0x00000000#32) (ix2 p c)
      = ∑ j : Fin 1024, l (ix2 p j) * r (ix2 j c) := by
  rw [Ideal.matmul_constant_zero_apply, ← Equiv.sum_comp (contrEquiv1 dot_S2048x1024_S1024x256_S2048x256_1_0_0_1_n_n 1024 rfl rfl).symm]
  refine Finset.sum_congr rfl fun k _ => ?_
  have hk := contrEquiv1_symm_val dot_S2048x1024_S1024x256_S2048x256_1_0_0_1_n_n 1024 rfl rfl k
  have el : dot_S2048x1024_S1024x256_S2048x256_1_0_0_1_n_n.lhsIdx (ix2 p c) ((contrEquiv1 dot_S2048x1024_S1024x256_S2048x256_1_0_0_1_n_n 1024 rfl rfl).symm k) = ix2 p k := funext fun a => Fin.ext (by
    match a with
    | ⟨0, _⟩ => exact lhs1_0 _ _
    | ⟨1, _⟩ => exact (lhs1_1 _ _).trans hk)
  have er : dot_S2048x1024_S1024x256_S2048x256_1_0_0_1_n_n.rhsIdx (ix2 p c) ((contrEquiv1 dot_S2048x1024_S1024x256_S2048x256_1_0_0_1_n_n 1024 rfl rfl).symm k) = ix2 k c := funext fun a => Fin.ext (by
    match a with
    | ⟨0, _⟩ => exact (rhs1_0 _ _).trans hk
    | ⟨1, _⟩ => exact rhs1_1 _ _)
  rw [el, er]

/-- The zero word of the 32-bit format is the extended real 0. -/
theorem scalar_zero : (Scalar.ofBits (F := Ideal) .f32 0x00000000#32 : EReal) = 0 :=
  Ideal.ofBits_zero_f32

/-! ## The four payloads -/

/-- The first kernel's stored block: the row block of X times W. -/
theorem pay0 (v0 : Vec Ideal S2048x256 .f32) (v2 : Vec Ideal S256x256 .f32) (p : Fin 2048) (c : Fin 256) :
    k0_pay1 (F := Ideal) v0 v2 (ix2 p c) = ∑ a : Fin 256, v0 (ix2 p a) * v2 (ix2 a c) := by
  unfold k0_pay1
  exact matmul0_apply (truncf .bf16 v0 bitsLt_bf16_f32) (truncf .bf16 v2 bitsLt_bf16_f32) p c

/-- The second kernel's initial store: zero everywhere. -/
theorem pay_zero (p : Fin 2048) (c : Fin 256) : k1_pay1 (F := Ideal) (ix2 p c) = (0 : EReal) := by
  unfold k1_pay1
  simp only [shapeCast_self]
  exact scalar_zero

/-- One accumulation step: the old value plus the block product. -/
theorem pay_acc (v3 : Vec Ideal S2048x1024 .f32) (v8 : Vec Ideal S1024x256 .bf16) (v10 : Vec Ideal S2048x256 .f32)
    (p : Fin 2048) (c : Fin 256) :
    k1_pay2 (F := Ideal) v3 v8 v10 (ix2 p c) = v10 (ix2 p c) + ∑ j : Fin 1024, v3 (ix2 p j) * v8 (ix2 j c) := by
  unfold k1_pay2
  simp only [shapeCast_self]
  exact congrArg (v10 (ix2 p c) + ·) (matmul1_apply (truncf .bf16 v3 bitsLt_bf16_f32) v8 p c)

/-- The final store: the maximum of the accumulated value and zero. -/
theorem pay_relu (v19 : Vec Ideal S2048x256 .f32) (p : Fin 2048) (c : Fin 256) :
    k1_pay3 (F := Ideal) v19 (ix2 p c) = max (v19 (ix2 p c)) 0 := by
  unfold k1_pay3
  exact congrArg (max (v19 (ix2 p c))) scalar_zero

end Cert.KernelIdeal.Pay

end
-- ==== Proof.Spec.lean ====
/-
  The specification of the graph-convolution layer, index by index, and the regrouping of its inner sum.

  Inputs: X of shape [16384, 256], A of shape [16384, 16384], W of shape [256, 256], over the extended reals.
  The result is Y = max (A · (X · W)) 0, that is
    Y(r, c) = max (Σ_k A(r, k) · (Σ_a X(k, a) · W(a, c))) 0.
  The inner index k runs over 16384 values; cut into 16 consecutive blocks of 1024 the sum is the sum of the
  16 block sums. Addition on the extended reals is commutative and associative, so this regrouping needs no
  finiteness; it is stated for any commutative additive monoid.
-/
import Idealize.ShloMosaic.PureOps.Ideal
import Idealize.ShloMosaic.Lib.ValueIdx

noncomputable section

open Idealize.ShloMosaic

namespace Cert.Spec

open Idealize.ShloMosaic.ValueIdx

abbrev SX : Shape := ⟨2, ![16384, 256]⟩
abbrev SA : Shape := ⟨2, ![16384, 16384]⟩
abbrev SW : Shape := ⟨2, ![256, 256]⟩

/-- (X·W)(r,c) = Σ_a X(r,a) · W(a,c). -/
def xw (X : SX.Idx → EReal) (W : SW.Idx → EReal) (r : Fin 16384) (c : Fin 256) : EReal :=
  ∑ a : Fin 256, X (ix2 r a) * W (ix2 a c)

/-- Y(r,c) = max (Σ_k A(r,k) · (X·W)(k,c)) 0. -/
def y (X : SX.Idx → EReal) (A : SA.Idx → EReal) (W : SW.Idx → EReal) (r : Fin 16384) (c : Fin 256) : EReal :=
  max (∑ k : Fin 16384, A (ix2 r k) * xw X W k c) 0

/-- The result array: Y read at a rank-2 index through its two coordinates. -/
def G (X : SX.Idx → EReal) (A : SA.Idx → EReal) (W : SW.Idx → EReal) : SX.Idx → EReal :=
  fun j => y X A W ⟨(j 0).val, idx2_lt0 j⟩ ⟨(j 1).val, idx2_lt1 j⟩

/-- A sum over 16 consecutive blocks of 1024 is the sum over all 16384: the pair (block kb, position j in the
    block) is the index kb · 1024 + j, and the pairs are in bijection with the indices below 16384. -/
theorem sum_blocks {M : Type} [AddCommMonoid M] (f : Fin 16384 → M) :
    ∑ kb : Fin 16, ∑ j : Fin 1024, f ⟨kb.val * 1024 + j.val, by omega⟩ = ∑ k : Fin 16384, f k := by
  calc ∑ kb : Fin 16, ∑ j : Fin 1024, f ⟨kb.val * 1024 + j.val, by omega⟩
      = ∑ p : Fin 16 × Fin 1024, f (finProdFinEquiv p) := by
        rw [Fintype.sum_prod_type]
        refine Finset.sum_congr rfl fun kb _ => Finset.sum_congr rfl fun j _ => ?_
        refine congrArg f (Fin.ext ?_)
        show kb.val * 1024 + j.val = j.val + 1024 * kb.val
        omega
    _ = ∑ k : Fin 16384, f k := Equiv.sum_comp (finProdFinEquiv (m := 16) (n := 1024)) f

/-- The same count as a running sum: the sum over the first 16 naturals of a function of the block number is
    the sum over the 16 block indices; the form an induction over the blocks accumulated so far produces. -/
theorem sum_blocks_range {M : Type} [AddCommMonoid M] (g : ℕ → M) :
    ∑ kb ∈ Finset.range 16, g kb = ∑ kb : Fin 16, g kb.val :=
  (Fin.sum_univ_eq_sum_range g 16).symm

end Cert.Spec

end
-- ==== Proof.Value0.lean ====
/-
  What the first kernel region leaves in its output array, over the extended reals: the whole matrix X·W.
  At grid point t the body's stored block is, at (p, c), the sum over a of X-block(p, a) · W(a, c); the X-block at
  point t is rows t·2048 … t·2048 + 2047 of X, and the output block written back at t is the same rows of the
  output. The 8 blocks tile the 16384 rows, so the array ends as (r, c) ↦ Σ_a X(r, a) · W(a, c).
-/
import proofs.«105310_j7602092114484_2_alg».proof.Proof.Region0
import proofs.«105310_j7602092114484_2_alg».proof.Proof.Payloads
import proofs.«105310_j7602092114484_2_alg».proof.Proof.Spec
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- X·W as an array over rank-2 indices. -/
def XW (X : S16384x256.Idx → EReal) (W : S256x256.Idx → EReal) : S16384x256.Idx → EReal :=
  fun j => Cert.Spec.xw X W ⟨(j 0).val, idx2_lt0 j⟩ ⟨(j 1).val, idx2_lt1 j⟩

/-- The index maps over the 8 points: the X block and the output block move together along the rows, W stays. -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 7 :=
  (by decide +kernel : ∀ t : Fin grid0.N, _)

/-- Every row block is some point's. -/
theorem idx_onto0 : ∀ q0 : Fin 8, ∃ t : Fin cfg0.N, win0_2.index t = ![q0.val, 0] :=
  (by decide +kernel : ∀ q0 : Fin 8, ∃ t : Fin grid0.N, win0_2.index t = ![q0.val, 0])

/-- The X block at point `t`, read at (p, a): X at row (block index · 2048 + p). -/
theorem iblk0_0_apply (c : Dev nD) (t : Fin cfg0.N) (p : Fin 2048) (a : Fin 256) :
    iblk0 V c 0 t (ix2 p a) = V c main_arg0 (ix2 (⟨win0_2.index t (0 : Fin 2) * 2048 + p.val, by have := (idx_facts0 t).2.2.2.2.2; omega⟩ : Fin 16384) a) := by
  obtain ⟨e0, e1, -, -, -, -⟩ := idx_facts0 t
  show V c main_arg0 (((cfg0.win 0).blk t).view.emb (ix2 p a)) = _
  refine congrArg (V c main_arg0) ?_
  funext d; apply Fin.ext
  match d with
  | ⟨0, _⟩ => show win0_0.index t (0 : Fin 2) * 2048 + 1 * p.val = win0_2.index t (0 : Fin 2) * 2048 + p.val; omega
  | ⟨1, _⟩ => show win0_0.index t (1 : Fin 2) * 256 + 1 * a.val = a.val; omega

/-- W's block at any point is W. -/
theorem iblk0_1_apply (c : Dev nD) (t : Fin cfg0.N) (a : Fin 256) (q : Fin 256) :
    iblk0 V c 1 t (ix2 a q) = V c main_arg2 (ix2 a q) := by
  obtain ⟨-, -, e2, e3, -, -⟩ := idx_facts0 t
  show V c main_arg2 (((cfg0.win 1).blk t).view.emb (ix2 a q)) = _
  refine congrArg (V c main_arg2) ?_
  funext d; apply Fin.ext
  match d with
  | ⟨0, _⟩ => show win0_1.index t (0 : Fin 2) * 256 + 1 * a.val = a.val; omega
  | ⟨1, _⟩ => show win0_1.index t (1 : Fin 2) * 256 + 1 * q.val = q.val; omega

/-- What point `t` writes back is block `t` of X·W. -/
theorem flushed0_eq (c : Dev nD) (t : Fin cfg0.N) :
    (dat0 V c).flushed 2 t = ((cfg0.win 2).blk t).view.read (Elt Ideal) (XW (V c main_arg0) (V c main_arg2)) := by
  show (cfg0.win 2).cut (grid0.coords t) ((dat0 V c).after 2 t) = _
  rw [after0_2]
  unfold out0_2
  rw [View.canon_unit_zero hz]
  simp only [View.ld_unit_zero (S := S2048x256) hz, View.ld_unit_zero (S := S256x256) hz]
  obtain ⟨e0, e1, e2, e3, e4, e5⟩ := idx_facts0 t
  funext j
  obtain ⟨p, q, rfl⟩ : ∃ (p : Fin 2048) (q : Fin 256), j = ix2 p q := ⟨j 0, j 1, eq_ix2 j⟩
  show k0_pay1 (F := Ideal) (iblk0 V c 0 t) (iblk0 V c 1 t) (ix2 p q) = XW (V c main_arg0) (V c main_arg2) (((cfg0.win 2).blk t).view.emb (ix2 p q))
  refine (Pay.pay0 (iblk0 V c 0 t) (iblk0 V c 1 t) p q).trans ?_
  unfold XW Cert.Spec.xw
  refine Finset.sum_congr rfl fun a _ => ?_
  rw [iblk0_0_apply V c t p a, iblk0_1_apply V c t a q]
  refine congrArg₂ (· * ·) (congrArg (V c main_arg0) ?_) (congrArg (V c main_arg2) ?_)
  · funext d; apply Fin.ext
    match d with
    | ⟨0, _⟩ => show win0_2.index t (0 : Fin 2) * 2048 + p.val = win0_2.index t (0 : Fin 2) * 2048 + 1 * p.val; omega
    | ⟨1, _⟩ => rfl
  · funext d; apply Fin.ext
    match d with
    | ⟨0, _⟩ => rfl
    | ⟨1, _⟩ => show q.val = win0_2.index t (1 : Fin 2) * 256 + 1 * q.val; omega

theorem mem_blk0 (t : Fin cfg0.N) (i : S16384x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v0).slice (win0_2.rect t)).set ↔ _
  rw [View.set_slice_whole, Rect.mem_set_unit]
  exact Iff.rfl

/-- The row blocks tile the array: row r is in the block of the point with block index r / 2048. -/
theorem cover0 (i : S16384x256.Idx) : ∃ t : Fin cfg0.N, (cfg0.win 2).flush t = true ∧ i ∈ ((cfg0.win 2).blk t).view.set := by
  have hi0 : (i 0).val < 16384 := (i 0).isLt
  have hi1 : (i 1).val < 256 := (i 1).isLt
  obtain ⟨t, ht⟩ := idx_onto0 ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 256 ≤ (i 1).val ∧ (i 1).val < win0_2.index t (1 : Fin 2) * 256 + 256; omega

/-- The first region's output array after the region: X·W of the arrays it found. -/
theorem final0 (c : Dev nD) : (dat0 V c).arrAt 2 cfg0.N = XW (V c main_arg0) (V c main_arg2) :=
  (dat0 V c).arrAt_eq_of_cover 2 (XW (V c main_arg0) (V c main_arg2)) (fun t _ => flushed0_eq V c t) cover0

end Cert.KernelIdeal.Val

end
-- ==== Proof.Pieces.lean ====
/-
  What the second region's body leaves, case by case, as the kernel's own arithmetic applied to the buffers'
  contents it was handed (at any float instance): after a first step the accumulator is zero plus the step's
  product; after any other step it is the accumulator found plus the step's product; the block stored at a last
  step is the maximum of that sum and zero. The step's product multiplies the point's block of the adjacency
  matrix with the 1024 rows of X·W that start at row 1024·k, k the step's coordinate along the contracted axis.
-/
import proofs.«105310_j7602092114484_2_alg».proof.Proof.Region1
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- The 1024 rows of X·W a step reads. -/
abbrev rB (i : grid1.Coords) : Rect S16384x256 := Rect.unit (s := S16384x256) (k1_off1 i) S1024x256.size (k1_off1_inb i)

theorem sout1_B_eq (c : Dev nD) (i : grid1.Coords) (arg2 : Memref sig .tc .vmem S2048x1024 .f32) (harg2 : arg2.IsWhole) (arg3 : Memref sig .tc .vmem S16384x256 .bf16) (harg3 : arg3.IsWhole) (arg4 : Memref sig .tc .vmem S2048x256 .f32) (harg4 : arg4.IsWhole) (arg5 : Memref sig .tc .vmem S2048x256 .f32) (harg5 : arg5.IsWhole) (hc0 : ¬cond1_0 i) (hc1 : ¬cond1_1 i)
    (x0 : Vec F S2048x1024 .f32) (x1 : Vec F S16384x256 .bf16) (xs : Vec F S2048x256 .f32) :
    sout1_B c i arg2 harg2 arg3 harg3 arg4 harg4 arg5 harg5 hc0 hc1 x0 x1 xs = k1_pay2 x0 (View.ld x1 (rB i)) xs := by
  unfold sout1_B
  rw [View.read_writes_eq_canon _ _ _ (scover1_B c i arg2 harg2 arg3 harg3 arg4 harg4 arg5 harg5 hc0 hc1 x0 x1 xs)]
  unfold kernelRun1_B
  dsimp only
  sl_unfold_words
  rw [View.canon_unit_zero hz2]
  simp only [View.readAt_eq_ld, harg2.read_unread, harg3.read_unread, harg5.read_unread, View.ld_unit_zero (S := S2048x1024) hz2, View.ld_unit_zero (S := S2048x256) hz2]
  rfl

theorem sout1_C_eq (c : Dev nD) (i : grid1.Coords) (arg2 : Memref sig .tc .vmem S2048x1024 .f32) (harg2 : arg2.IsWhole) (arg3 : Memref sig .tc .vmem S16384x256 .bf16) (harg3 : arg3.IsWhole) (arg4 : Memref sig .tc .vmem S2048x256 .f32) (harg4 : arg4.IsWhole) (arg5 : Memref sig .tc .vmem S2048x256 .f32) (harg5 : arg5.IsWhole) (hc0 : ¬cond1_0 i) (hc1 : cond1_1 i)
    (x0 : Vec F S2048x1024 .f32) (x1 : Vec F S16384x256 .bf16) (xs : Vec F S2048x256 .f32) :
    sout1_C c i arg2 harg2 arg3 harg3 arg4 harg4 arg5 harg5 hc0 hc1 x0 x1 xs = k1_pay2 x0 (View.ld x1 (rB i)) xs := by
  unfold sout1_C
  rw [View.read_writes_eq_canon _ _ _ (scover1_C c i arg2 harg2 arg3 harg3 arg4 harg4 arg5 harg5 hc0 hc1 x0 x1 xs)]
  unfold kernelRun1_C
  dsimp only
  sl_unfold_words
  rw [View.canon_unit_zero hz2]
  simp only [View.readAt_eq_ld, harg2.read_unread, harg3.read_unread, harg5.read_unread, View.ld_unit_zero (S := S2048x1024) hz2, View.ld_unit_zero (S := S2048x256) hz2]
  rfl

theorem out1_C_2_eq (c : Dev nD) (i : grid1.Coords) (arg2 : Memref sig .tc .vmem S2048x1024 .f32) (harg2 : arg2.IsWhole) (arg3 : Memref sig .tc .vmem S16384x256 .bf16) (harg3 : arg3.IsWhole) (arg4 : Memref sig .tc .vmem S2048x256 .f32) (harg4 : arg4.IsWhole) (arg5 : Memref sig .tc .vmem S2048x256 .f32) (harg5 : arg5.IsWhole) (hc0 : ¬cond1_0 i) (hc1 : cond1_1 i)
    (x0 : Vec F S2048x1024 .f32) (x1 : Vec F S16384x256 .bf16) (xs : Vec F S2048x256 .f32) :
    out1_C_2 c i arg2 harg2 arg3 harg3 arg4 harg4 arg5 harg5 hc0 hc1 x0 x1 xs = k1_pay3 (k1_pay2 x0 (View.ld x1 (rB i)) xs) := by
  unfold out1_C_2
  rw [View.read_writes_eq_canon _ _ _ (cover1_C_2 c i arg2 harg2 arg3 harg3 arg4 harg4 arg5 harg5 hc0 hc1 x0 x1 xs)]
  unfold kernelRun1_C
  dsimp only
  sl_unfold_words
  rw [View.canon_unit_zero hz2, View.readCov_unit_zero _ hz2]
  simp only [View.readAt_eq_ld, harg2.read_unread, harg3.read_unread, harg5.read_unread, View.ld_unit_zero (S := S2048x1024) hz2, View.ld_unit_zero (S := S2048x256) hz2]
  rfl

theorem sout1_A_eq (c : Dev nD) (i : grid1.Coords) (arg2 : Memref sig .tc .vmem S2048x1024 .f32) (harg2 : arg2.IsWhole) (arg3 : Memref sig .tc .vmem S16384x256 .bf16) (harg3 : arg3.IsWhole) (arg4 : Memref sig .tc .vmem S2048x256 .f32) (harg4 : arg4.IsWhole) (arg5 : Memref sig .tc .vmem S2048x256 .f32) (harg5 : arg5.IsWhole) (hc0 : cond1_0 i) (hc1 : ¬cond1_1 i)
    (x0 : Vec F S2048x1024 .f32) (x1 : Vec F S16384x256 .bf16) :
    sout1_A c i arg2 harg2 arg3 harg3 arg4 harg4 arg5 harg5 hc0 hc1 x0 x1 = k1_pay2 x0 (View.ld x1 (rB i)) (k1_pay1 (F := F)) := by
  unfold sout1_A
  rw [View.read_writes_eq_canon _ _ _ (scover1_A c i arg2 harg2 arg3 harg3 arg4 harg4 arg5 harg5 hc0 hc1 x0 x1)]
  unfold kernelRun1_A
  dsimp only
  sl_unfold_words
  rw [View.canon_cons_unit_zero hz2, View.readCov_unit_zero _ hz2]
  simp only [View.readAt_eq_ld, harg2.read_unread, harg3.read_unread, View.ld_unit_zero (S := S2048x1024) hz2]
  rfl

end Cert.KernelIdeal.Fr

end
-- ==== Proof.Value1.lean ====
/-
  What the second kernel region leaves in its output array, over the extended reals. Write A for the adjacency
  matrix and B for X·W as the region finds them. At the point with row block ib and step k the accumulator gains,
  at (p, q), the block product  M(r, k, q) = Σ_{j < 1024} A(r, 1024·k + j) · B(1024·k + j, q)  with r = 2048·ib + p.
  By induction along a row block's 16 steps the accumulator after step k holds Σ_{kb ≤ k} M(r, kb, q) (it starts
  from zero at k = 0), and at k = 15 the block stored is max(Σ_{kb < 16} M(r, kb, q), 0). Sixteen consecutive blocks
  of 1024 make up the 16384 values of the contracted index, so this is max(Σ_k A(r, k) · B(k, q), 0); the 8 row
  blocks written back at the last steps tile the output array.
-/
import proofs.«105310_j7602092114484_2_alg».proof.Proof.Pieces
import proofs.«105310_j7602092114484_2_alg».proof.Proof.Payloads
import proofs.«105310_j7602092114484_2_alg».proof.Proof.Spec
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The index maps and the step coordinate over the 128 points: point t is row block t / 16 at step t % 16. -/
theorem idx_facts1 : ∀ t : Fin cfg1.N, win1_0.index t (0 : Fin 2) = t.val / 16 ∧ win1_0.index t (1 : Fin 2) = t.val % 16
    ∧ win1_1.index t (0 : Fin 2) = 0 ∧ win1_1.index t (1 : Fin 2) = 0
    ∧ win1_2.index t (0 : Fin 2) = t.val / 16 ∧ win1_2.index t (1 : Fin 2) = 0
    ∧ ((grid1.coords t) 1).val = t.val % 16 ∧ t.val < 128 :=
  (by decide +kernel : ∀ t : Fin grid1.N, _)

/-- Every row block has a last step, where it is written back. -/
theorem idx_onto1 : ∀ q0 : Fin 8, ∃ t : Fin cfg1.N, (cfg1.win 2).flush t = true ∧ win1_2.index t = ![q0.val, 0] :=
  (by decide +kernel : ∀ q0 : Fin 8, ∃ t : Fin grid1.N, win1_2.flush t = true ∧ win1_2.index t = ![q0.val, 0])

/-- A and B at natural-number coordinates (zero outside the arrays, where nothing reads them). -/
def Aat (A : S16384x16384.Idx → EReal) (r k : ℕ) : EReal := if h : r < 16384 ∧ k < 16384 then A (ix2 (⟨r, h.1⟩ : Fin 16384) (⟨k, h.2⟩ : Fin 16384)) else 0
def Bat (B : S16384x256.Idx → EReal) (k : ℕ) (q : Fin 256) : EReal := if h : k < 16384 then B (ix2 (⟨k, h⟩ : Fin 16384) q) else 0
/-- The block product of step kb at row r, column q. -/
def M (A : S16384x16384.Idx → EReal) (B : S16384x256.Idx → EReal) (r kb : ℕ) (q : Fin 256) : EReal :=
  ∑ j : Fin 1024, Aat A r (kb * 1024 + j.val) * Bat B (kb * 1024 + j.val) q

/-- The block of the adjacency matrix at point `t`, read at (p, j). -/
theorem iblk1_0_apply (c : Dev nD) (t : Fin cfg1.N) (p : Fin 2048) (j : Fin 1024) :
    iblk1 V c 0 t (ix2 p j) = Aat (V c main_arg1) (t.val / 16 * 2048 + p.val) (t.val % 16 * 1024 + j.val) := by
  obtain ⟨e0, e1, -, -, -, -, -, hN⟩ := idx_facts1 t
  unfold Aat
  rw [dif_pos ⟨by omega, by omega⟩]
  show V c main_arg1 (((cfg1.win 0).blk t).view.emb (ix2 p j)) = _
  refine congrArg (V c main_arg1) ?_
  funext d; apply Fin.ext
  match d with
  | ⟨0, _⟩ => show win1_0.index t (0 : Fin 2) * 2048 + 1 * p.val = t.val / 16 * 2048 + p.val; omega
  | ⟨1, _⟩ => show win1_0.index t (1 : Fin 2) * 1024 + 1 * j.val = t.val % 16 * 1024 + j.val; omega

/-- The 1024 rows of X·W the step reads, at (j, q). -/
theorem slice_apply (c : Dev nD) (t : Fin cfg1.N) (j : Fin 1024) (q : Fin 256) :
    View.ld (iblk1 V c 1 t) (rB (grid1.coords t)) (ix2 j q) = Bat (V c main_v0) (t.val % 16 * 1024 + j.val) q := by
  obtain ⟨-, -, e2, e3, -, -, e6, hN⟩ := idx_facts1 t
  unfold Bat
  rw [dif_pos (by omega)]
  have hoff : k1_off1 (grid1.coords t) = ![1024 * ((grid1.coords t) 1).val, 0] := k1_off1_eq _
  show V c main_v0 (((cfg1.win 1).blk t).view.emb ((rB (grid1.coords t)).idx (ix2 j q))) = _
  refine congrArg (V c main_v0) ?_
  funext d; apply Fin.ext
  match d with
  | ⟨0, _⟩ =>
    show win1_1.index t (0 : Fin 2) * 16384 + 1 * (k1_off1 (grid1.coords t) 0 + 1 * j.val) = t.val % 16 * 1024 + j.val
    rw [hoff]
    show win1_1.index t (0 : Fin 2) * 16384 + 1 * (1024 * ((grid1.coords t) 1).val + 1 * j.val) = t.val % 16 * 1024 + j.val
    omega
  | ⟨1, _⟩ =>
    show win1_1.index t (1 : Fin 2) * 256 + 1 * (k1_off1 (grid1.coords t) 1 + 1 * q.val) = q.val
    rw [hoff]
    show win1_1.index t (1 : Fin 2) * 256 + 1 * (0 + 1 * q.val) = q.val
    omega

/-- One step of the accumulation, at an index: the accumulator found plus the step's block product. -/
theorem step_apply (c : Dev nD) (t : Fin cfg1.N) (xs : Vec Ideal S2048x256 .f32) (p : Fin 2048) (q : Fin 256) :
    k1_pay2 (F := Ideal) (iblk1 V c 0 t) (View.ld (iblk1 V c 1 t) (rB (grid1.coords t))) xs (ix2 p q)
      = xs (ix2 p q) + M (V c main_arg1) (V c main_v0) (t.val / 16 * 2048 + p.val) (t.val % 16) q := by
  refine (Pay.pay_acc (iblk1 V c 0 t) (View.ld (iblk1 V c 1 t) (rB (grid1.coords t))) xs p q).trans ?_
  refine congrArg (xs (ix2 p q) + ·) ?_
  unfold M
  refine Finset.sum_congr rfl fun j _ => ?_
  rw [iblk1_0_apply V c t p j, slice_apply V c t j q]

/-- THE ACCUMULATOR after point t, at (p, q): the block products of the steps so far in t's row block. -/
theorem acc_inv (c : Dev nD) (n : ℕ) : ∀ t : Fin cfg1.N, t.val = n → ∀ (p : Fin 2048) (q : Fin 256),
    accAt V c t.val t.isLt (ix2 p q) = ∑ kb ∈ Finset.range (t.val % 16 + 1), M (V c main_arg1) (V c main_v0) (t.val / 16 * 2048 + p.val) kb q := by
  induction n with
  | zero =>
    intro t ht p q
    have h0 : t.val % 16 = 0 := by omega
    have h1 : ¬t.val % 16 = 15 := by omega
    rw [accAt_A V c t h0 h1, sout1_A_eq]
    refine (step_apply V c t _ p q).trans ?_
    rw [Pay.pay_zero p q, zero_add, h0, Finset.sum_range_one]
  | succ n ih =>
    intro t ht p q
    by_cases h0 : t.val % 16 = 0
    · have h1 : ¬t.val % 16 = 15 := by omega
      rw [accAt_A V c t h0 h1, sout1_A_eq]
      refine (step_apply V c t _ p q).trans ?_
      rw [Pay.pay_zero p q, zero_add, h0, Finset.sum_range_one]
    · have e1 : (t.val - 1) % 16 + 1 = t.val % 16 := by omega
      have e2 : (t.val - 1) / 16 = t.val / 16 := by omega
      have hprev := ih ⟨t.val - 1, Nat.lt_of_le_of_lt (Nat.sub_le _ _) t.isLt⟩ (by show t.val - 1 = n; omega) p q
      have hprev' : accAt V c (t.val - 1) (Nat.lt_of_le_of_lt (Nat.sub_le _ _) t.isLt) (ix2 p q)
          = ∑ kb ∈ Finset.range (t.val % 16), M (V c main_arg1) (V c main_v0) (t.val / 16 * 2048 + p.val) kb q := by
        rw [← e1, ← e2]; exact hprev
      by_cases h1 : t.val % 16 = 15
      · rw [accAt_C V c t h0 h1, sout1_C_eq]
        refine (step_apply V c t _ p q).trans ?_
        rw [hprev', Finset.sum_range_succ]
      · rw [accAt_B V c t h0 h1, sout1_B_eq]
        refine (step_apply V c t _ p q).trans ?_
        rw [hprev', Finset.sum_range_succ]

/-- The layer's result from A and B = X·W: (r, q) ↦ max (Σ_k A(r, k) · B(k, q)) 0. -/
def Y1 (A : S16384x16384.Idx → EReal) (B : S16384x256.Idx → EReal) : S16384x256.Idx → EReal :=
  fun i => max (∑ k : Fin 16384, A (ix2 (⟨(i 0).val, idx2_lt0 i⟩ : Fin 16384) k) * B (ix2 k (⟨(i 1).val, idx2_lt1 i⟩ : Fin 256))) 0

/-- Sixteen block products make the whole contracted sum. -/
theorem sum_M (A : S16384x16384.Idx → EReal) (B : S16384x256.Idx → EReal) (r : Fin 16384) (q : Fin 256) :
    ∑ kb ∈ Finset.range 16, M A B r.val kb q = ∑ k : Fin 16384, A (ix2 r k) * B (ix2 k q) := by
  rw [Cert.Spec.sum_blocks_range, ← Cert.Spec.sum_blocks (fun k => A (ix2 r k) * B (ix2 k q))]
  refine Finset.sum_congr rfl fun kb _ => ?_
  unfold M
  refine Finset.sum_congr rfl fun j _ => ?_
  have hk : kb.val * 1024 + j.val < 16384 := by omega
  unfold Aat Bat
  rw [dif_pos ⟨r.isLt, hk⟩, dif_pos hk]

/-- What a last step writes back is its block of the layer's result. -/
theorem flushed1_eq (c : Dev nD) (t : Fin cfg1.N) (hf : (cfg1.win 2).flush t = true) :
    (dat1 V c).flushed 2 t = ((cfg1.win 2).blk t).view.read (Elt Ideal) (Y1 (V c main_arg1) (V c main_v0)) := by
  have h1 : t.val % 16 = 15 := (flush1_2 t).mp hf
  have h0 : ¬t.val % 16 = 0 := by omega
  obtain ⟨-, -, -, -, e4, e5, -, hN⟩ := idx_facts1 t
  show (cfg1.win 2).cut (grid1.coords t) ((dat1 V c).after 2 t) = _
  rw [after1_2, outAt_C V c t h0 h1, out1_C_2_eq]
  have hacc : k1_pay2 (F := Ideal) (iblk1 V c 0 t) (View.ld (iblk1 V c 1 t) (rB (grid1.coords t))) (accAt V c (t.val - 1) (Nat.lt_of_le_of_lt (Nat.sub_le _ _) t.isLt))
      = accAt V c t.val t.isLt := ((accAt_C V c t h0 h1).trans (sout1_C_eq _ _ _ _ _ _ _ _ _ _ _ _ _ _ _)).symm
  funext j
  obtain ⟨p, q, rfl⟩ : ∃ (p : Fin 2048) (q : Fin 256), j = ix2 p q := ⟨j 0, j 1, eq_ix2 j⟩
  show k1_pay3 (F := Ideal) (k1_pay2 (F := Ideal) (iblk1 V c 0 t) (View.ld (iblk1 V c 1 t) (rB (grid1.coords t))) (accAt V c (t.val - 1) (Nat.lt_of_le_of_lt (Nat.sub_le _ _) t.isLt))) (ix2 p q)
    = Y1 (V c main_arg1) (V c main_v0) (((cfg1.win 2).blk t).view.emb (ix2 p q))
  refine (Pay.pay_relu _ p q).trans ?_
  refine (congrArg (fun v : EReal => max v 0) (congrFun hacc (ix2 p q))).trans ?_
  show max (accAt V c t.val t.isLt (ix2 p q)) 0 = _
  rw [acc_inv V c t.val t rfl p q, h1]
  have hr : t.val / 16 * 2048 + p.val < 16384 := by omega
  have hs := sum_M (V c main_arg1) (V c main_v0) ⟨t.val / 16 * 2048 + p.val, hr⟩ q
  rw [show (15 + 1 : ℕ) = 16 from rfl]
  refine (congrArg (max · 0) hs).trans ?_
  unfold Y1
  refine congrArg (max · 0) (Finset.sum_congr rfl fun k _ => ?_)
  refine congrArg₂ (· * ·) (congrArg (V c main_arg1) ?_) (congrArg (V c main_v0) ?_)
  · funext d; apply Fin.ext
    match d with
    | ⟨0, _⟩ => show t.val / 16 * 2048 + p.val = win1_2.index t (0 : Fin 2) * 2048 + 1 * p.val; omega
    | ⟨1, _⟩ => rfl
  · funext d; apply Fin.ext
    match d with
    | ⟨0, _⟩ => rfl
    | ⟨1, _⟩ => show q.val = win1_2.index t (1 : Fin 2) * 256 + 1 * q.val; omega

theorem mem_blk1 (t : Fin cfg1.N) (i : S16384x256.Idx) :
    i ∈ ((cfg1.win 2).blk t).view.set ↔ ∀ a : Fin 2, win1_2.index t a * S2048x256.size a ≤ (i a).val ∧ (i a).val < win1_2.index t a * S2048x256.size a + S2048x256.size a := by
  show i ∈ ((View.whole main_v1).slice (win1_2.rect t)).set ↔ _
  rw [View.set_slice_whole, Rect.mem_set_unit]
  exact Iff.rfl

/-- The blocks written back at the 8 last steps tile the output array. -/
theorem cover1 (i : S16384x256.Idx) : ∃ t : Fin cfg1.N, (cfg1.win 2).flush t = true ∧ i ∈ ((cfg1.win 2).blk t).view.set := by
  have hi0 : (i 0).val < 16384 := (i 0).isLt
  have hi1 : (i 1).val < 256 := (i 1).isLt
  obtain ⟨t, hf, ht⟩ := idx_onto1 ⟨(i 0).val / 2048, by omega⟩
  have q0 : win1_2.index t (0 : Fin 2) = (i 0).val / 2048 := congrFun ht 0
  have q1 : win1_2.index t (1 : Fin 2) = 0 := congrFun ht 1
  refine ⟨t, hf, ?_⟩
  rw [mem_blk1]
  intro a
  match a with
  | ⟨0, _⟩ => show win1_2.index t (0 : Fin 2) * 2048 ≤ (i 0).val ∧ (i 0).val < win1_2.index t (0 : Fin 2) * 2048 + 2048; omega
  | ⟨1, _⟩ => show win1_2.index t (1 : Fin 2) * 256 ≤ (i 1).val ∧ (i 1).val < win1_2.index t (1 : Fin 2) * 256 + 256; omega

/-- The second region's output array after the region: the layer's result from the arrays it found. -/
theorem final1 (c : Dev nD) : (dat1 V c).arrAt 2 cfg1.N = Y1 (V c main_arg1) (V c main_v0) :=
  (dat1 V c).arrAt_eq_of_cover 2 (Y1 (V c main_arg1) (V c main_v0)) (fun t hf => flushed1_eq V c t hf) cover1

end Cert.KernelIdeal.Val

end
-- ==== Proof.RefValue.lean ====
/-
  The reference program's result is the specification.

  The reference computes X·W by one contraction over 256 coordinates, then A·(X·W) by one contraction over 16384
  coordinates, then the elementwise maximum with the zero constant. Read at an index (r, c): the outer product's
  left operand is read at (r, k) and its right operand at (k, c); the inner product's at (k, a) and (a, c). So the
  element is max (Σ_k A(r,k) · Σ_a X(k,a) · W(a,c)) 0, which is the specification's Y(r, c).
-/
import proofs.«105310_j7602092114484_2_alg».proof.Proof.Gen.ReferenceIdeal.Read
import proofs.«105310_j7602092114484_2_alg».proof.Proof.Spec

noncomputable section

open Idealize.ShloMosaic

namespace Cert.RefValue

open Idealize.ShloMosaic.ValueIdx Cert.ReferenceIdeal Cert.ReferenceIdeal.Read

/-- The outer product's left operand index at output (r, c) and contraction coordinate k is (r, k). -/
theorem lidx1_eq (i : S16384x256.Idx) (k : Fin 16384) :
    lidx_main_v1 i k = ix2 (⟨(i 0).val, idx2_lt0 i⟩ : Fin 16384) k :=
  funext fun a => by match a with | ⟨0, _⟩ => rfl | ⟨1, _⟩ => rfl

/-- The outer product's right operand index is (k, c). -/
theorem ridx1_eq (i : S16384x256.Idx) (k : Fin 16384) :
    ridx_main_v1 i k = ix2 k (⟨(i 1).val, idx2_lt1 i⟩ : Fin 256) :=
  funext fun a => by match a with | ⟨0, _⟩ => rfl | ⟨1, _⟩ => rfl

/-- The inner product's left operand index at output (k, c) and contraction coordinate a is (k, a). -/
theorem lidx0_eq (k : Fin 16384) (c : Fin 256) (a : Fin 256) : lidx_main_v0 (ix2 k c) a = ix2 k a :=
  funext fun d => by match d with | ⟨0, _⟩ => rfl | ⟨1, _⟩ => rfl

/-- The inner product's right operand index is (a, c). -/
theorem ridx0_eq (k : Fin 16384) (c : Fin 256) (a : Fin 256) : ridx_main_v0 (ix2 k c) a = ix2 a c :=
  funext fun d => by match d with | ⟨0, _⟩ => rfl | ⟨1, _⟩ => rfl

/-- The reference's result array is the specification's. -/
theorem ref_eq (X : (⟨Cert.ReferenceIdeal.S16384x256, .f32⟩ : BufTy).Contents (Elt Ideal))
    (A : (⟨Cert.ReferenceIdeal.S16384x16384, .f32⟩ : BufTy).Contents (Elt Ideal))
    (W : (⟨Cert.ReferenceIdeal.S256x256, .f32⟩ : BufTy).Contents (Elt Ideal)) :
    Cert.ReferenceIdeal.Read.val_main_v2 (F := Ideal) X A W = Cert.Spec.G X A W := by
  funext i
  rw [val_main_v2_apply, val_main_v1_apply, val_main_call0_v0_apply, val_main_call0_cst_apply,
    Ideal.maximumf_def, Ideal.ofBits_def, Ideal.ofBits_zero_f32]
  unfold Cert.Spec.G Cert.Spec.y Cert.Spec.xw
  refine congrArg (max · 0) (Finset.sum_congr rfl fun k _ => ?_)
  rw [lidx1_eq, ridx1_eq, val_main_v0_apply]
  refine congrArg (_ * ·) (Finset.sum_congr rfl fun a _ => ?_)
  rw [lidx0_eq, ridx0_eq]

end Cert.RefValue

end
-- ==== Proof.lean ====
/-
  The certificate of the graph-convolution layer  Y = max(A · (X · W), 0)  over X : [16384, 256], A : [16384, 16384],
  W : [256, 256].

  The kernel program runs two kernel regions. The first computes X·W in 8 blocks of 2048 rows, each block one matrix
  product into a zero accumulator (Region0, Value0). The second walks an 8 × 16 grid: for each block of 2048 rows it
  carries a scratch accumulator through 16 steps along the contracted index, adding at step k the product of the
  (row block, k) block of A with rows 1024·k … 1024·k + 1023 of X·W, and stores max(accumulator, 0) at the last step
  (Run1A/B/C, Region1, Pieces, Value1). FrameRun chains the two regions from launch to return at any float instance,
  and names the buffers' contents between them; the same text at the word-level program is KFrameRun.

  Over the extended reals a change of float format is the identity and every sum is exact, and addition there is
  commutative and associative, so the 16 partial sums over blocks of 1024 regroup into the one sum over all 16384
  values of the contracted index without any finiteness: the kernel's result and the reference's two products and
  maximum (RefValue, over the reference's generated run) are the same function Spec.G of the three arguments.
  The idealization rewrote nothing, so it is preserved trivially.
-/
import proofs.«105310_j7602092114484_2_alg».proof.Defs
import proofs.«105310_j7602092114484_2_alg».proof.Proof.Gen.Kernel
import proofs.«105310_j7602092114484_2_alg».proof.Proof.Gen.KernelIdeal
import proofs.«105310_j7602092114484_2_alg».proof.Proof.Gen.ReferenceIdeal
import proofs.«105310_j7602092114484_2_alg».proof.Proof.Gen.ReferenceIdeal.Run
import proofs.«105310_j7602092114484_2_alg».proof.Proof.Gen.ReferenceIdeal.Read
import proofs.«105310_j7602092114484_2_alg».proof.Proof.Gen.Pre_finite_inputs
import proofs.«105310_j7602092114484_2_alg».proof.Proof.KFrameRun
import proofs.«105310_j7602092114484_2_alg».proof.Proof.FrameRun
import proofs.«105310_j7602092114484_2_alg».proof.Proof.Value0
import proofs.«105310_j7602092114484_2_alg».proof.Proof.Value1
import proofs.«105310_j7602092114484_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame m ρ

theorem frame_ki : Cert.frame_KernelIdeal := fun m ρ _ => Cert.KernelIdeal.Fr.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal in
/-- The kernel's result array over the extended reals: the layer's function of the three arguments. The second
    region finds A as launched and X·W as the first region left it. -/
theorem kernel_result (m : (ℓ : Loc nD τ sig) → Buf (Elt Ideal) ℓ) (ρ : Dev nD → PrngReg) (c : Dev nD) :
    (Cert.KernelIdeal.Fr.dat1 (Cert.KernelIdeal.Fr.V1 m ρ) c).arrAt 2 cfg1.N
      = Cert.Spec.G (m ((c.tc : Thread nD τ).loc main_arg0)) (m ((c.tc : Thread nD τ).loc main_arg1)) (m ((c.tc : Thread nD τ).loc main_arg2)) := by
  rw [Cert.KernelIdeal.Val.final1, Cert.KernelIdeal.Fr.V1_main_arg1, Cert.KernelIdeal.Fr.V1_main_v0, Cert.KernelIdeal.Val.final0]
  funext i
  unfold Cert.KernelIdeal.Val.Y1 Cert.Spec.G Cert.Spec.y
  refine congrArg (max · 0) (Finset.sum_congr rfl fun k _ => ?_)
  rfl

/-- Both idealized programs, from memories agreeing on the arguments, end with the layer's function of them. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · exact (θ_run Cert.KernelIdeal.defs _ _).mono (fun _ h c => ⟨(h c).1.trans (kernel_result m ρ c), (h c).2⟩)
      (Cert.KernelIdeal.Fr.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v2_eq, Cert.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
